-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048 : Shape := ⟨2, ![64, 2048]⟩
abbrev S64 : Shape := ⟨1, ![64]⟩
abbrev S64x64 : Shape := ⟨2, ![64, 64]⟩
abbrev S2048x64 : Shape := ⟨2, ![2048, 64]⟩
abbrev S2048 : Shape := ⟨1, ![2048]⟩
abbrev S512 : Shape := ⟨1, ![512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_
  reducesTo_S_S_d : S_.ReducesTo [] S_

variable [Facts]

def fn_part3 {F : FTy → Type} [FloatOps F] (main_arg11 : FVec F S512 .f32) (main_arg12 : FVec F S_ .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg7 : FVec F S64 .f32) (main_arg8 : FVec F S2048x64 .f32) (main_arg9 : FVec F S2048 .f32) (main_arg10 : FVec F S512 .f32) (main_arg11 : FVec F S512 .f32) (main_arg12 : FVec F S_ .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2048x64 .f32 := Host.absf main_arg8
  let main_cst_14 : FVec F S_ .f32 := constant S_ .f32 0x7F800000#32
  let main_v40 : FVec F S2048x64 .f32 := broadcastInDim S2048x64 ![] bcast_S_S2048x64 main_cst_14
  let main_v41 : IVec S2048x64 1 := cmpf .olt main_v39 main_v40
  let main_c_15 : IVec S_ 1 := constantI S_ 1 1#1
  let main_v42 : IVec S_ 1 := (fun x v => Host.reduce IntOp.andi x v reducesTo_S2048x64_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S64x64 .f32) (main_arg5 : FVec F S64x64 .f32) (main_arg6 : FVec F S64x64 .f32) (main_arg7 : FVec F S64 .f32) (main_arg8 : FVec F S2048x64 .f32) (main_arg9 : FVec F S2048 .f32) (main_arg10 : FVec F S512 .f32) (main_arg11 : FVec F S512 .f32) (main_arg12 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x2048x512 .f32) (main_arg1 : FVec F S64x2048 .f32) (main_arg2 : FVec F S64 .f32) (main_arg3 : FVec F S64x64 .f32) (main_arg4 : FVec F S64x64 .f32) (main_arg5 : FVec F S64x64 .f32) (main_arg6 : FVec F S64x64 .f32) (main_arg7 : FVec F S64 .f32) (main_arg8 : FVec F S2048x64 .f32) (main_arg9 : FVec F S2048 .f32) (main_arg10 : FVec F S512 .f32) (main_arg11 : FVec F S512 .f32) (main_arg12 : FVec F S_ .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S64x2048x512 : Shape := ⟨3, ![64, 2048, 512]⟩
abbrev S64x2048 : Shape := ⟨2, ![64, 2048]⟩
abbrev S64 : Shape := ⟨1, ![64]⟩
abbrev S64x64 : Shape := ⟨2, ![64, 64]⟩
abbrev S2048x64 : Shape := ⟨2, ![2048, 64]⟩
abbrev S2048 : Shape := ⟨1, ![2048]⟩
abbrev S512 : Shape := ⟨1, ![512]⟩
abbrev S_ : Shape := ⟨0, ![]⟩
abbrev S64x1 : Shape := ⟨2, ![64, 1]⟩
abbrev S2048x1 : Shape := ⟨2, ![2048, 1]⟩
abbrev S256x64 : Shape := ⟨2, ![256, 64]⟩
abbrev S1x512 : Shape := ⟨2, ![1, 512]⟩
abbrev S1x1 : Shape := ⟨2, ![1, 1]⟩
abbrev S1x2048x512 : Shape := ⟨3, ![1, 2048, 512]⟩
abbrev S2048x512 : Shape := ⟨2, ![2048, 512]⟩
abbrev S64x512 : Shape := ⟨2, ![64, 512]⟩
abbrev S256x512 : Shape := ⟨2, ![256, 512]⟩

abbrev nBuf : Space → Nat
  | .hbm => 21
  | .vmem => 13
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S2048x64, .f32⟩
  | .hbm, ⟨9, _⟩ => ⟨S2048, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S2048x1, .f32⟩
  | .hbm, ⟨16, _⟩ => ⟨S256x64, .f32⟩
  | .hbm, ⟨17, _⟩ => ⟨S1x512, .f32⟩
  | .hbm, ⟨18, _⟩ => ⟨S1x512, .f32⟩
  | .hbm, ⟨19, _⟩ => ⟨S1x1, .f32⟩
  | .hbm, ⟨20, _⟩ => ⟨S64x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S64x2048, .f32⟩
  | .local _ .vmem, ⟨3, _⟩ => ⟨S64x1, .f32⟩
  | .local _ .vmem, ⟨4, _⟩ => ⟨S256x64, .f32⟩
  | .local _ .vmem, ⟨5, _⟩ => ⟨S64x1, .f32⟩
  | .local _ .vmem, ⟨6, _⟩ => ⟨S2048x64, .f32⟩
  | .local _ .vmem, ⟨7, _⟩ => ⟨S2048x1, .f32⟩
  | .local _ .vmem, ⟨8, _⟩ => ⟨S1x512, .f32⟩
  | .local _ .vmem, ⟨9, _⟩ => ⟨S1x512, .f32⟩
  | .local _ .vmem, ⟨10, _⟩ => ⟨S1x1, .f32⟩
  | .local _ .vmem, ⟨11, _⟩ => ⟨S1x2048x512, .f32⟩
  | .local _ .vmem, ⟨12, _⟩ => ⟨S1x2048x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64_S64x1 : S64.ShapeCasts S64x1
  shapeCasts_S2048_S2048x1 : S2048.ShapeCasts S2048x1
  concatenates_S64x64_S64x64_S64x64_S64x64_S256x64_d0 : Shape.Concatenates [S64x64, S64x64, S64x64, S64x64] S256x64 0
  shapeCasts_S512_S1x512 : S512.ShapeCasts S1x512
  shapeCasts_S_S1x1 : S_.ShapeCasts S1x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x2048_S64x2048_0_0 : ∀ a, (![0, 0] : Fin 2 → Nat) a + S64x2048.size a ≤ S64x2048.size a
  h_S64x2048 : 0 < S64x2048.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S256x512_o0_0_S64x512 : S256x512.Slices ![0, 0] S64x512
  slices_S256x512_o64_0_S64x512 : S256x512.Slices ![64, 0] S64x512
  slices_S256x512_o128_0_S64x512 : S256x512.Slices ![128, 0] S64x512
  slices_S256x512_o192_0_S64x512 : S256x512.Slices ![192, 0] S64x512
  reduces_S64x512_S512 : S64x512.Reduces [0] S512
  broadcasts_S1x512_S64x512 : S1x512.Broadcasts S64x512
  reduces_S64x512_S64 : S64x512.Reduces [1] S64
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  broadcasts_S1x1_S2048x512 : S1x1.Broadcasts S2048x512
  reduces_S2048x512_S2048 : S2048x512.Reduces [1] S2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S1x2048x512 : S2048x512.ShapeCasts S1x2048x512
  dot_S64x2048_S2048x512_S64x512_1_0_0_1_n_n_wf : DotDims.WF S64x2048 S2048x512 S64x512 [1] [0] [0] [1] [] []
  dot_S256x64_S64x512_S256x512_1_0_0_1_n_n_wf : DotDims.WF S256x64 S64x512 S256x512 [1] [0] [0] [1] [] []
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S2048x64.size a
  hwx0_5 : ∀ i : grid0.Coords, EltTy.bits .f32 = 32 ∨ (Rect.block (s := S2048x64) S2048x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S2048x1.size a
  hwx0_6 : ∀ i : grid0.Coords, EltTy.bits .f32 = 32 ∨ (Rect.block (s := S2048x1) S2048x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2048x512.size a ≤ S64x2048x512.size a
  hwx0_10 : ∀ i : grid0.Coords, EltTy.bits .f32 = 32 ∨ (Rect.block (s := S64x2048x512) S1x2048x512.size (cc0_transform_10 i) (hinb0_10 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S2048x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x2048x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2048 : Shape := ⟨2, ![64, 2048]⟩
abbrev S64 : Shape := ⟨1, ![64]⟩
abbrev S64x64 : Shape := ⟨2, ![64, 64]⟩
abbrev S2048x64 : Shape := ⟨2, ![2048, 64]⟩
abbrev S2048 : Shape := ⟨1, ![2048]⟩
abbrev S512 : Shape := ⟨1, ![512]⟩
abbrev S_ : Shape := ⟨0, ![]⟩
abbrev S64x512x2048 : Shape := ⟨3, ![64, 512, 2048]⟩
abbrev S64x512x64 : Shape := ⟨3, ![64, 512, 64]⟩
abbrev S1x1x64 : Shape := ⟨3, ![1, 1, 64]⟩
abbrev S64x512 : Shape := ⟨2, ![64, 512]⟩
abbrev S64x512x1 : Shape := ⟨3, ![64, 512, 1]⟩
abbrev S64x1x64 : Shape := ⟨3, ![64, 1, 64]⟩
abbrev S1x1x2048 : Shape := ⟨3, ![1, 1, 2048]⟩
abbrev S64x2048x1 : Shape := ⟨3, ![64, 2048, 1]⟩
abbrev S1x1x512 : Shape := ⟨3, ![1, 1, 512]⟩

abbrev nBuf : Space → Nat
  | .hbm => 97
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S2048x64, .f32⟩
  | .hbm, ⟨9, _⟩ => ⟨S2048, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S64x512x2048, .f32⟩
  | .hbm, ⟨14, _⟩ => ⟨S64x512x64, .f32⟩
  | .hbm, ⟨15, _⟩ => ⟨S1x1x64, .f32⟩
  | .hbm, ⟨16, _⟩ => ⟨S64x512x64, .f32⟩
  | .hbm, ⟨17, _⟩ => ⟨S64x512x64, .f32⟩
  | .hbm, ⟨18, _⟩ => ⟨S64x512x64, .f32⟩
  | .hbm, ⟨19, _⟩ => ⟨S64x512x64, .f32⟩
  | .hbm, ⟨20, _⟩ => ⟨S_, .f32⟩
  | .hbm, ⟨21, _⟩ => ⟨S64x512, .f32⟩
  | .hbm, ⟨22, _⟩ => ⟨S64x512x1, .f32⟩
  | .hbm, ⟨23, _⟩ => ⟨S64x512x1, .f32⟩
  | .hbm, ⟨24, _⟩ => ⟨S_, .f32⟩
  | .hbm, ⟨25, _⟩ => ⟨S64x512x1, .f32⟩
  | .hbm, ⟨26, _⟩ => ⟨S64x512x1, .f32⟩
  | .hbm, ⟨27, _⟩ => ⟨S64x512x64, .f32⟩
  | .hbm, ⟨28, _⟩ => ⟨S64x512x64, .f32⟩
  | .hbm, ⟨29, _⟩ => ⟨S64x512x64, .f32⟩
  | .hbm, ⟨30, _⟩ => ⟨S64x512x64, .f32⟩
  | .hbm, ⟨31, _⟩ => ⟨S_, .f32⟩
  | .hbm, ⟨32, _⟩ => ⟨S64x512, .f32⟩
  | .hbm, ⟨33, _⟩ => ⟨S64x512x1, .f32⟩
  | .hbm, ⟨34, _⟩ => ⟨S64x512x1, .f32⟩
  | .hbm, ⟨35, _⟩ => ⟨S_, .f32⟩
  | .hbm, ⟨36, _⟩ => ⟨S64x512x1, .f32⟩
  | .hbm, ⟨37, _⟩ => ⟨S64x512x1, .f32⟩
  | .hbm, ⟨38, _⟩ => ⟨S64x512x64, .f32⟩
  | .hbm, ⟨39, _⟩ => ⟨S64x512x64, .f32⟩
  | .hbm, ⟨40, _⟩ => ⟨S64x512x64, .f32⟩
  | .hbm, ⟨41, _⟩ => ⟨S64x512x64, .f32⟩
  | .hbm, ⟨42, _⟩ => ⟨S_, .f32⟩
  | .hbm, ⟨43, _⟩ => ⟨S64x64, .f32⟩
  | .hbm, ⟨44, _⟩ => ⟨S64x1x64, .f32⟩
  | .hbm, ⟨45, _⟩ => ⟨S64x512x64, .f32⟩
  | .hbm, ⟨46, _⟩ => ⟨S64x512x64, .f32⟩
  | .hbm, ⟨47, _⟩ => ⟨S64x512x64, .f32⟩
  | .hbm, ⟨48, _⟩ => ⟨S1x1x64, .f32⟩
  | .hbm, ⟨49, _⟩ => ⟨S64x512x64, .f32⟩
  | .hbm, ⟨50, _⟩ => ⟨S64x512x64, .f32⟩
  | .hbm, ⟨51, _⟩ => ⟨S64x512x64, .f32⟩
  | .hbm, ⟨52, _⟩ => ⟨S64x512x64, .f32⟩
  | .hbm, ⟨53, _⟩ => ⟨S_, .f32⟩
  | .hbm, ⟨54, _⟩ => ⟨S64x512x64, .f32⟩
  | .hbm, ⟨55, _⟩ => ⟨S64x512x64, .f32⟩
  | .hbm, ⟨56, _⟩ => ⟨S_, .f32⟩
  | .hbm, ⟨57, _⟩ => ⟨S64x512x64, .f32⟩
  | .hbm, ⟨58, _⟩ => ⟨S64x512x64, .f32⟩
  | .hbm, ⟨59, _⟩ => ⟨S64x512x64, .f32⟩
  | .hbm, ⟨60, _⟩ => ⟨S64x512x2048, .f32⟩
  | .hbm, ⟨61, _⟩ => ⟨S1x1x2048, .f32⟩
  | .hbm, ⟨62, _⟩ => ⟨S64x512x2048, .f32⟩
  | .hbm, ⟨63, _⟩ => ⟨S64x512x2048, .f32⟩
  | .hbm, ⟨64, _⟩ => ⟨S64x512x2048, .f32⟩
  | .hbm, ⟨65, _⟩ => ⟨S64x512x2048, .f32⟩
  | .hbm, ⟨66, _⟩ => ⟨S64x512x2048, .f32⟩
  | .hbm, ⟨67, _⟩ => ⟨S64x2048x512, .f32⟩
  | .hbm, ⟨68, _⟩ => ⟨S_, .f32⟩
  | .hbm, ⟨69, _⟩ => ⟨S64x2048, .f32⟩
  | .hbm, ⟨70, _⟩ => ⟨S64x2048x1, .f32⟩
  | .hbm, ⟨71, _⟩ => ⟨S_, .f32⟩
  | .hbm, ⟨72, _⟩ => ⟨S64x2048x1, .f32⟩
  | .hbm, ⟨73, _⟩ => ⟨S64x2048x1, .f32⟩
  | .hbm, ⟨74, _⟩ => ⟨S64x2048x512, .f32⟩
  | .hbm, ⟨75, _⟩ => ⟨S64x2048x512, .f32⟩
  | .hbm, ⟨76, _⟩ => ⟨S64x2048x512, .f32⟩
  | .hbm, ⟨77, _⟩ => ⟨S_, .f32⟩
  | .hbm, ⟨78, _⟩ => ⟨S64x2048, .f32⟩
  | .hbm, ⟨79, _⟩ => ⟨S64x2048x1, .f32⟩
  | .hbm, ⟨80, _⟩ => ⟨S_, .f32⟩
  | .hbm, ⟨81, _⟩ => ⟨S64x2048x1, .f32⟩
  | .hbm, ⟨82, _⟩ => ⟨S64x2048x1, .f32⟩
  | .hbm, ⟨83, _⟩ => ⟨S64x2048x512, .f32⟩
  | .hbm, ⟨84, _⟩ => ⟨S64x2048x512, .f32⟩
  | .hbm, ⟨85, _⟩ => ⟨S_, .f32⟩
  | .hbm, ⟨86, _⟩ => ⟨S64x2048x1, .f32⟩
  | .hbm, ⟨87, _⟩ => ⟨S64x2048x1, .f32⟩
  | .hbm, ⟨88, _⟩ => ⟨S64x2048x1, .f32⟩
  | .hbm, ⟨89, _⟩ => ⟨S64x2048x512, .f32⟩
  | .hbm, ⟨90, _⟩ => ⟨S64x2048x512, .f32⟩
  | .hbm, ⟨91, _⟩ => ⟨S1x1x512, .f32⟩
  | .hbm, ⟨92, _⟩ => ⟨S64x2048x512, .f32⟩
  | .hbm, ⟨93, _⟩ => ⟨S64x2048x512, .f32⟩
  | .hbm, ⟨94, _⟩ => ⟨S1x1x512, .f32⟩
  | .hbm, ⟨95, _⟩ => ⟨S64x2048x512, .f32⟩
  | .hbm, ⟨96, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]

class Facts₀ : Prop where
  transposes_S64x2048x512_S64x512x2048_0_2_1 : S64x2048x512.Transposes [0, 2, 1] S64x512x2048
  bcast_S64_S1x1x64_2 : S64.BroadcastsInDim S1x1x64 (![2] : Fin 1 → Fin S1x1x64.rank)
  bcast_S1x1x64_S64x512x64_0_1_2 : S1x1x64.BroadcastsInDim S64x512x64 (![0, 1, 2] : Fin 3 → Fin S64x512x64.rank)
  reducesTo_S64x512x64_S64x512_d2 : S64x512x64.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x64_0_1_2 : S64x512x1.BroadcastsInDim S64x512x64 (![0, 1, 2] : Fin 3 → Fin S64x512x64.rank)
  reducesTo_S64x512x64_S64x64_d1 : S64x512x64.ReducesTo [1] S64x64
  bcast_S64x64_S64x1x64_0_2 : S64x64.BroadcastsInDim S64x1x64 (![0, 2] : Fin 2 → Fin S64x1x64.rank)
  bcast_S64x1x64_S64x512x64_0_1_2 : S64x1x64.BroadcastsInDim S64x512x64 (![0, 1, 2] : Fin 3 → Fin S64x512x64.rank)
  bcast_S_S64x512x64 : S_.BroadcastsInDim S64x512x64 (![] : Fin 0 → Fin S64x512x64.rank)
  bcast_S2048_S1x1x2048_2 : S2048.BroadcastsInDim S1x1x2048 (![2] : Fin 1 → Fin S1x1x2048.rank)
  bcast_S1x1x2048_S64x512x2048_0_1_2 : S1x1x2048.BroadcastsInDim S64x512x2048 (![0, 1, 2] : Fin 3 → Fin S64x512x2048.rank)
  bcast_S_S64x512x2048 : S_.BroadcastsInDim S64x512x2048 (![] : Fin 0 → Fin S64x512x2048.rank)
  transposes_S64x512x2048_S64x2048x512_0_2_1 : S64x512x2048.Transposes [0, 2, 1] S64x2048x512
  reducesTo_S64x2048x512_S64x2048_d2 : S64x2048x512.ReducesTo [2] S64x2048
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  bcast_S64x2048x1_S64x2048x512_0_1_2 : S64x2048x1.BroadcastsInDim S64x2048x512 (![0, 1, 2] : Fin 3 → Fin S64x2048x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  dot_S64x512x2048_S64x2048_S64x512x64_2_1_01_0_n_n_wf : DotDims.WF S64x512x2048 S64x2048 S64x512x64 [2] [1] [0, 1] [0] [] []
  dot_S64x512x64_S64x64_S64x512x64_2_1_01_0_n_n_wf : DotDims.WF S64x512x64 S64x64 S64x512x64 [2] [1] [0, 1] [0] [] []
  dot_S64x512x64_S2048x64_S64x512x2048_2_1_01_0_n_n_wf : DotDims.WF S64x512x64 S2048x64 S64x512x2048 [2] [1] [0, 1] [0] [] []

variable [Facts₀]

def dot_S64x512x2048_S64x2048_S64x512x64_2_1_01_0_n_n : DotDims S64x512x2048 S64x2048 S64x512x64 where
  lhsContracting := [2]
  rhsContracting := [1]
  lhsNonContracting := [0, 1]
  rhsNonContracting := [0]
  lhsBatch := []
  rhsBatch := []
  wf := dot_S64x512x2048_S64x2048_S64x512x64_2_1_01_0_n_n_wf
def dot_S64x512x64_S64x64_S64x512x64_2_1_01_0_n_n : DotDims S64x512x64 S64x64 S64x512x64 where
  lhsContracting := [2]
  rhsContracting := [1]
  lhsNonContracting := [0, 1]
  rhsNonContracting := [0]
  lhsBatch := []
  rhsBatch := []
  wf := dot_S64x512x64_S64x64_S64x512x64_2_1_01_0_n_n_wf
def dot_S64x512x64_S2048x64_S64x512x2048_2_1_01_0_n_n : DotDims S64x512x64 S2048x64 S64x512x2048 where
  lhsContracting := [2]
  rhsContracting := [1]
  lhsNonContracting := [0, 1]
  rhsNonContracting := [0]
  lhsBatch := []
  rhsBatch := []
  wf := dot_S64x512x64_S2048x64_S64x512x2048_2_1_01_0_n_n_wf

class Facts : Prop extends Facts₀ where

variable [Facts]
-- ==== Proof.FrameBits.lean ====
/- The frame of the kernel program at the word level: @main runs to its end on every core, faults nowhere, and
   leaves each of its thirteen argument arrays as it found it.

   @main is seven host operations (six reshapes and one concatenation of four square matrices), each writing
   a fresh result array, followed by ONE pipelined region over a grid of 64 points. The region has eleven
   windows. Window 0 is the block (1, 2048, 512) of the first argument at the grid point; windows 1 to 9 are
   whole arrays (the same block at every point); window 10 is the block (1, 2048, 512) of the result array at
   the grid point. At each point the body loads the ten input blocks whole, computes one value of the output
   block's shape from them, and stores it over the whole output block.

   The argument follows the pipeline library's frame run: the arrays as the region finds them are the launch
   contents pushed through the host operations; an input window's staging buffer holds that window's block at
   every point whether or not it was fetched there; the body, run on those blocks, leaves each input buffer as
   it was and the output buffer at a closed function of the ten input blocks; hence the region writes only the
   result array, and no argument array is written by anyone. Everything is stated for an arbitrary float
   instance; the word-level program is the instance at machine words. -/
import proofs.«125835_j78022375899457_2_alg».proof.Proof.Gen.Kernel.Launch
import proofs.«125835_j78022375899457_2_alg».proof.Proof.Gen.Kernel.Skeleton
import proofs.«125835_j78022375899457_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership of an index in a rectangle of extents 2048 x 512 is looked at one coordinate at a time
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s arrays hold when the region is entered: the launch contents after the seven host
    operations, applied in order. -/
abbrev V (c : Dev nD) (b : Ref sig .tc) : Buf (Elt F) ((c : Thread nD τ).loc b) :=
  StableHlo.after hostOps0 (fun b => m (c, b)) b

/-- No host operation allocates anything: each writes a result array that already exists. -/
theorem hostOps0_fresh : (hostOps0 : List (HloOp τ sig (Elt F))).Forall fun op => op.fresh = ∅ := by
  simp only [List.Forall]; repeat' constructor

/-- @main is the one stretch of host operations and then the region; so, holding the arrays at the launch
    contents, it reaches the region holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The seven result arrays of the host operations, in order: everything the stretch writes. -/
abbrev hostResults : List (Ref sig .tc) := [main_v0, main_v1, main_v2, main_v3, main_v4, main_v5, main_v6]

/-- Each host operation writes exactly its own result array, a reshape and the four-operand concatenation
    alike; so the stretch writes inside `hostResults`. -/
theorem hostOps0_writes :
    (hostOps0 : List (HloOp τ sig (Elt F))).Forall fun op =>
      op.writes ⊆ (hostResults.map (Proc.devRef (τ := τ) .tc)).toFinset := by
  simp only [hostOps0, List.Forall, StableHlo.reshape_writes, StableHlo.nary_writes, Finset.singleton_subset_iff,
    hostResults, List.map_cons, List.map_nil, List.toFinset_cons, List.toFinset_nil, Finset.mem_insert,
    Finset.mem_singleton, true_or, or_true, and_self]

/-- An array that is none of the seven results is found by the region as launched. -/
theorem V_of_not_result (c : Dev nD) (r : Ref sig .tc) (hr : r ∉ hostResults) :
    V m c r = m ((c : Thread nD τ).loc r) :=
  StableHlo.after_of_writes_sub hostOps0 (fun b => m (c, b)) hostOps0_writes hr

/-- The thirteen argument arrays are no host operation's result: the region finds each as launched. -/
theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)
theorem V_main_arg8 (c : Dev nD) : V m c main_arg8 = m ((c : Thread nD τ).loc main_arg8) := V_of_not_result m c _ (by decide)
theorem V_main_arg9 (c : Dev nD) : V m c main_arg9 = m ((c : Thread nD τ).loc main_arg9) := V_of_not_result m c _ (by decide)
theorem V_main_arg10 (c : Dev nD) : V m c main_arg10 = m ((c : Thread nD τ).loc main_arg10) := V_of_not_result m c _ (by decide)
theorem V_main_arg11 (c : Dev nD) : V m c main_arg11 = m ((c : Thread nD τ).loc main_arg11) := V_of_not_result m c _ (by decide)
theorem V_main_arg12 (c : Dev nD) : V m c main_arg12 = m ((c : Thread nD τ).loc main_arg12) := V_of_not_result m c _ (by decide)

/-! ## The windows' blocks -/

/-- Window `w`'s block at grid point `t`: the part of its array, as the region finds it, that the window's
    index map selects there. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! Each of the ten input windows is uncut and never idle. For proof data whose array for the window is the
    region-entry contents and whose body leaves the window's buffer at its block, the buffer holds the block at
    EVERY point: where the pipeline fetches, the fetch puts it there; where it does not, the block index has not
    moved since the last fetch and the body left the block in place. -/

theorem before0_0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hblk : ∀ t, dat.blockOf 0 t = iblk m c 0 t := fun t => by unfold Dat.blockOf iblk; rw [hA]
  have hfetched : dat.fetched 0 t d = dat.blockOf 0 t := rfl
  rw [dat.before_in_eq_fetched 0 rfl (fun _ => rfl) (fun _ _ _ => rfl) (fun t => by rw [hafter, hblk]) t d,
    hfetched, hblk]

theorem before0_1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hblk : ∀ t, dat.blockOf 1 t = iblk m c 1 t := fun t => by unfold Dat.blockOf iblk; rw [hA]
  have hfetched : dat.fetched 1 t d = dat.blockOf 1 t := rfl
  rw [dat.before_in_eq_fetched 1 rfl (fun _ => rfl) (fun _ _ _ => rfl) (fun t => by rw [hafter, hblk]) t d,
    hfetched, hblk]

theorem before0_2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t := by
  have hblk : ∀ t, dat.blockOf 2 t = iblk m c 2 t := fun t => by unfold Dat.blockOf iblk; rw [hA]
  have hfetched : dat.fetched 2 t d = dat.blockOf 2 t := rfl
  rw [dat.before_in_eq_fetched 2 rfl (fun _ => rfl) (fun _ _ _ => rfl) (fun t => by rw [hafter, hblk]) t d,
    hfetched, hblk]

theorem before0_3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t := by
  have hblk : ∀ t, dat.blockOf 3 t = iblk m c 3 t := fun t => by unfold Dat.blockOf iblk; rw [hA]
  have hfetched : dat.fetched 3 t d = dat.blockOf 3 t := rfl
  rw [dat.before_in_eq_fetched 3 rfl (fun _ => rfl) (fun _ _ _ => rfl) (fun t => by rw [hafter, hblk]) t d,
    hfetched, hblk]

theorem before0_4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t := by
  have hblk : ∀ t, dat.blockOf 4 t = iblk m c 4 t := fun t => by unfold Dat.blockOf iblk; rw [hA]
  have hfetched : dat.fetched 4 t d = dat.blockOf 4 t := rfl
  rw [dat.before_in_eq_fetched 4 rfl (fun _ => rfl) (fun _ _ _ => rfl) (fun t => by rw [hafter, hblk]) t d,
    hfetched, hblk]

theorem before0_5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t := by
  have hblk : ∀ t, dat.blockOf 5 t = iblk m c 5 t := fun t => by unfold Dat.blockOf iblk; rw [hA]
  have hfetched : dat.fetched 5 t d = dat.blockOf 5 t := rfl
  rw [dat.before_in_eq_fetched 5 rfl (fun _ => rfl) (fun _ _ _ => rfl) (fun t => by rw [hafter, hblk]) t d,
    hfetched, hblk]

theorem before0_6_of {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t := by
  have hblk : ∀ t, dat.blockOf 6 t = iblk m c 6 t := fun t => by unfold Dat.blockOf iblk; rw [hA]
  have hfetched : dat.fetched 6 t d = dat.blockOf 6 t := rfl
  rw [dat.before_in_eq_fetched 6 rfl (fun _ => rfl) (fun _ _ _ => rfl) (fun t => by rw [hafter, hblk]) t d,
    hfetched, hblk]

theorem before0_7_of {c : Dev nD} (dat : Dat τ (Elt F) Unit ℕ (UR sig nD τ) ℕ cfg0 c)
    (hA : dat.A 7 = V m c (Pipeline.arrRef spec0 7)) (hafter : ∀ t, dat.after 7 t = iblk m c 7 t)
    (t : Fin cfg0.N) (d) : dat.before 7 t d = iblk m c 7 t := by
  have hblk : ∀ t, dat.blockOf 7 t = iblk m c 7 t := fun t => by unfold Dat.blockOf iblk; rw [hA]
  have hfetched : dat.fetched 7 t d = dat.blockOf 7 t := rfl
  rw [dat.before_in_eq_fetched 7 rfl (fun _ => rfl) (fun _ _ _ => rfl) (fun t => by rw [hafter, hblk]) t d,
    hfetched, hblk]

theorem before0_8_of {c : Dev nD} (dat : Dat τ (Elt F) Unit ℕ (UR sig nD τ) ℕ cfg0 c)
    (hA : dat.A 8 = V m c (Pipeline.arrRef spec0 8)) (hafter : ∀ t, dat.after 8 t = iblk m c 8 t)
    (t : Fin cfg0.N) (d) : dat.before 8 t d = iblk m c 8 t := by
  have hblk : ∀ t, dat.blockOf 8 t = iblk m c 8 t := fun t => by unfold Dat.blockOf iblk; rw [hA]
  have hfetched : dat.fetched 8 t d = dat.blockOf 8 t := rfl
  rw [dat.before_in_eq_fetched 8 rfl (fun _ => rfl) (fun _ _ _ => rfl) (fun t => by rw [hafter, hblk]) t d,
    hfetched, hblk]

theorem before0_9_of {c : Dev nD} (dat : Dat τ (Elt F) Unit ℕ (UR sig nD τ) ℕ cfg0 c)
    (hA : dat.A 9 = V m c (Pipeline.arrRef spec0 9)) (hafter : ∀ t, dat.after 9 t = iblk m c 9 t)
    (t : Fin cfg0.N) (d) : dat.before 9 t d = iblk m c 9 t := by
  have hblk : ∀ t, dat.blockOf 9 t = iblk m c 9 t := fun t => by unfold Dat.blockOf iblk; rw [hA]
  have hfetched : dat.fetched 9 t d = dat.blockOf 9 t := rfl
  rw [dat.before_in_eq_fetched 9 rfl (fun _ => rfl) (fun _ _ _ => rfl) (fun t => by rw [hafter, hblk]) t d,
    hfetched, hblk]

/-! ## The frame claim from a frame run -/

/-- From a run of @main ending in the pipeline library's frame post — every windowed array at what the proof
    data computes for it, every other unscoped array as the region found it — each argument array is as
    launched. Arguments 0, 1 and 8 are the arrays of the input windows 0, 1 and 5: an input window's array is
    never written back, so it ends at the proof data's entry contents, which are `V`'s. The other ten arguments
    are no window's array. In both cases `V` at an argument is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r hr c => ?_) h
  obtain ⟨hwin, hrest⟩ := hr c
  -- an argument that is an input window's array
  have staged : ∀ (w : Fin cfg0.W) (hw : (cfg0.win w).isOut = false),
      (dats 0 c).arrAt w (cfgs 0).N = V m c (Pipeline.arrRef spec0 w) := fun w hw =>
    ((dats 0 c).arrAt_in w hw _).trans (hA c w)
  -- an argument that is no window's array
  have unstaged : ∀ (b : Ref sig .tc) (hs : b.isScoped = false) (hb : ∀ w, (spec0 w).arr.view.ref ≠ b),
      r.2.mem ((c.tc : Thread nD τ).loc b) = V m c b :=
    fun b hs hb => hrest b (Pipeline.mem_restRefs_of b hs hb)
  exact ⟨((hwin 0).trans (staged 0 rfl)).trans (V_main_arg0 m c),
    ((hwin 1).trans (staged 1 rfl)).trans (V_main_arg1 m c),
    (unstaged main_arg2 (by decide) (by decide)).trans (V_main_arg2 m c),
    (unstaged main_arg3 (by decide) (by decide)).trans (V_main_arg3 m c),
    (unstaged main_arg4 (by decide) (by decide)).trans (V_main_arg4 m c),
    (unstaged main_arg5 (by decide) (by decide)).trans (V_main_arg5 m c),
    (unstaged main_arg6 (by decide) (by decide)).trans (V_main_arg6 m c),
    (unstaged main_arg7 (by decide) (by decide)).trans (V_main_arg7 m c),
    ((hwin 5).trans (staged 5 rfl)).trans (V_main_arg8 m c),
    (unstaged main_arg9 (by decide) (by decide)).trans (V_main_arg9 m c),
    (unstaged main_arg10 (by decide) (by decide)).trans (V_main_arg10 m c),
    (unstaged main_arg11 (by decide) (by decide)).trans (V_main_arg11 m c),
    (unstaged main_arg12 (by decide) (by decide)).trans (V_main_arg12 m c)⟩

/-! ## The body's accesses

Every load and the one store of the body go through the rectangle of the WHOLE buffer: offsets zero, the
buffer's own extents. One such rectangle per buffer shape. -/

abbrev rBlk : Rect S1x2048x512 := Rect.unit (s := S1x2048x512) ![0, 0, 0] S1x2048x512.size inb_S1x2048x512_S1x2048x512_0_0_0
abbrev rWd : Rect S64x2048 := Rect.unit (s := S64x2048) ![0, 0] S64x2048.size inb_S64x2048_S64x2048_0_0
abbrev rCol64 : Rect S64x1 := Rect.unit (s := S64x1) ![0, 0] S64x1.size inb_S64x1_S64x1_0_0
abbrev rW4 : Rect S256x64 := Rect.unit (s := S256x64) ![0, 0] S256x64.size inb_S256x64_S256x64_0_0
abbrev rWu : Rect S2048x64 := Rect.unit (s := S2048x64) ![0, 0] S2048x64.size inb_S2048x64_S2048x64_0_0
abbrev rCol2048 : Rect S2048x1 := Rect.unit (s := S2048x1) ![0, 0] S2048x1.size inb_S2048x1_S2048x1_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-! ## What the body leaves in the output window's buffer -/

/-- The output buffer after the body, as a function of the ten input blocks `x0 … x9` (windows 0 to 9, in
    order): the body's one store laid over the buffer, its payload the last value the body computes — from
    the first part's five results (functions of the blocks of windows 0, 1, 2, 3, 4 and 9) and the blocks of
    windows 5, 6, 7 and 8. -/
def out10 (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) : Vec F S1x2048x512 .f32 :=
  View.canon [⟨rBlk, k0_pay7 (k0_pay1 (View.ld x0 rBlk)) (k0_pay2 (View.ld x9 rOne))
      (k0_pay4 (View.ld x0 rBlk) (View.ld x1 rWd) (View.ld x2 rCol64) (View.ld x3 rW4) (View.ld x4 rCol64))
      (k0_pay5 (View.ld x0 rBlk) (View.ld x1 rWd) (View.ld x2 rCol64) (View.ld x3 rW4))
      (k0_pay6 (View.ld x0 rBlk) (View.ld x1 rWd) (View.ld x2 rCol64) (View.ld x3 rW4))
      (View.ld x5 rWu) (View.ld x6 rCol2048) (View.ld x7 rRow) (View.ld x8 rRow)⟩]

/-- The store's rectangle is the whole buffer, so every index of the buffer is under it. -/
theorem cover10 (p : rBlk.shape.Idx → Elt F .f32) (y : S1x2048x512.Idx) :
    ∃ pc ∈ ([⟨rBlk, p⟩] : List (View.Piece (Elt F) S1x2048x512 .f32)), y ∈ pc.1.set :=
  ⟨_, List.mem_singleton_self _,
    View.mem_set_unit_zero (S := S1x2048x512) (off := ![0, 0, 0]) (by funext a; fin_cases a <;> rfl)
      inb_S1x2048x512_S1x2048x512_0_0_0 y⟩

/-- One covering store leaves its payload: `out10` without the overlay, and the loads through the whole
    rectangles read the blocks themselves. -/
theorem out10_eq (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) :
    out10 x0 x1 x2 x3 x4 x5 x6 x7 x8 x9 = k0_pay7 (k0_pay1 x0) (k0_pay2 x9) (k0_pay4 x0 x1 x2 x3 x4) (k0_pay5 x0 x1 x2 x3) (k0_pay6 x0 x1 x2 x3) x5 x6 x7 x8 := by
  have z3 : (![0, 0, 0] : Fin 3 → Nat) = fun _ => 0 := by funext a; fin_cases a <;> rfl
  have z2 : (![0, 0] : Fin 2 → Nat) = fun _ => 0 := by funext a; fin_cases a <;> rfl
  unfold out10
  rw [View.canon_unit_zero (S := S1x2048x512) z3 inb_S1x2048x512_S1x2048x512_0_0_0,
    View.ld_unit_zero (S := S1x2048x512) z3 inb_S1x2048x512_S1x2048x512_0_0_0 x0,
    View.ld_unit_zero (S := S64x2048) z2 inb_S64x2048_S64x2048_0_0 x1,
    View.ld_unit_zero (S := S64x1) z2 inb_S64x1_S64x1_0_0 x2,
    View.ld_unit_zero (S := S256x64) z2 inb_S256x64_S256x64_0_0 x3,
    View.ld_unit_zero (S := S64x1) z2 inb_S64x1_S64x1_0_0 x4,
    View.ld_unit_zero (S := S2048x64) z2 inb_S2048x64_S2048x64_0_0 x5,
    View.ld_unit_zero (S := S2048x1) z2 inb_S2048x1_S2048x1_0_0 x6,
    View.ld_unit_zero (S := S1x512) z2 inb_S1x512_S1x512_0_0 x7,
    View.ld_unit_zero (S := S1x512) z2 inb_S1x512_S1x512_0_0 x8,
    View.ld_unit_zero (S := S1x1) z2 inb_S1x1_S1x1_0_0 x9]

/-! ## The body's triple -/

set_option maxHeartbeats 1000000 in
/-- The body, run on whole staging memrefs holding the ten input blocks `x0 … x9` and an output memref holding
    anything, reaches its continuation with the inputs as they were and the output at `out10` of the inputs.
    The body reads the output buffer once before storing over it; the value read is used by nothing. -/
theorem sound_kernel (c : Dev nD) (E : Set ℕ) (i : grid0.Coords) (arg1 : Memref sig .tc .vmem S1x2048x512 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S256x64 .f32) (harg4 : arg4.IsWhole) (arg5 : Memref sig .tc .vmem S64x1 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x2048x512 .f32) (harg11 : arg11.IsWhole)
    (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The pipeline's proof data -/

/-- The proof data of the one pipeline on core `c`. The arrays at entry are the region-entry contents `V`. After
    the body at point `t`, each input window's buffer holds its block there, and the output window's buffer
    holds `out10` of the ten input blocks there. The invariant is the class's (the kernel's scratch and the
    generator register, neither of which this body touches); the core owes nothing; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (a projection of the definition; `V` is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) :
    (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input window's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is handed at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. The ten input buffers hold their blocks, so the body's triple applies with the blocks
    as the inputs; the invariant and what the core owes do not change from one point to the next and pass by
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point: its conjunction over the windows written out is
    `bodyPre` before and `bodyPost` after. -/
theorem body_obligation (c : Dev nD) :
    BodyObligation (dats (F := F) m 0 c) (defs₀ (F := F)) Variants.none () Set.univ := fun t => by
  rw [bigSep_W0, bigSep_W0]
  exact sound_body m c t

/-! ## The run and the frame -/

-- the library theorem's implicit arguments are found by unifying its conclusion with the statement below, which
-- needs plain definitions unfolded inside the type of a not-yet-known term
set_option backward.isDefEq.respectTransparency.types false in
/-- From any launch memory with all counters at zero, every weakly fair execution of @main on the cores
    terminates without fault, and at the end every windowed array holds what the proof data computes for it
    and every other unscoped array what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs to its end from any launch memory and leaves all thirteen argument arrays as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Frame

end
-- ==== Proof.FrameIdeal.lean ====
/- The frame of the idealized kernel program: @main runs to its end on every core, faults nowhere, and
   leaves each of its thirteen argument arrays as it found it.

   @main is seven host operations (six reshapes and one concatenation of four square matrices), each writing
   a fresh result array, followed by ONE pipelined region over a grid of 64 points. The region has eleven
   windows. Window 0 is the block (1, 2048, 512) of the first argument at the grid point; windows 1 to 9 are
   whole arrays (the same block at every point); window 10 is the block (1, 2048, 512) of the result array at
   the grid point. At each point the body loads the ten input blocks whole, computes one value of the output
   block's shape from them, and stores it over the whole output block.

   The argument follows the pipeline library's frame run: the arrays as the region finds them are the launch
   contents pushed through the host operations; an input window's staging buffer holds that window's block at
   every point whether or not it was fetched there; the body, run on those blocks, leaves each input buffer as
   it was and the output buffer at a closed function of the ten input blocks; hence the region writes only the
   result array, and no argument array is written by anyone. Everything is stated for an arbitrary float
   instance. -/
import proofs.«125835_j78022375899457_2_alg».proof.Proof.Gen.KernelIdeal.Launch
import proofs.«125835_j78022375899457_2_alg».proof.Proof.Gen.KernelIdeal.Skeleton
import proofs.«125835_j78022375899457_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership of an index in a rectangle of extents 2048 x 512 is looked at one coordinate at a time
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s arrays hold when the region is entered: the launch contents after the seven host
    operations, applied in order. -/
abbrev V (c : Dev nD) (b : Ref sig .tc) : Buf (Elt F) ((c : Thread nD τ).loc b) :=
  StableHlo.after hostOps0 (fun b => m (c, b)) b

/-- No host operation allocates anything: each writes a result array that already exists. -/
theorem hostOps0_fresh : (hostOps0 : List (HloOp τ sig (Elt F))).Forall fun op => op.fresh = ∅ := by
  simp only [List.Forall]; repeat' constructor

/-- @main is the one stretch of host operations and then the region; so, holding the arrays at the launch
    contents, it reaches the region holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The seven result arrays of the host operations, in order: everything the stretch writes. -/
abbrev hostResults : List (Ref sig .tc) := [main_v0, main_v1, main_v2, main_v3, main_v4, main_v5, main_v6]

/-- Each host operation writes exactly its own result array, a reshape and the four-operand concatenation
    alike; so the stretch writes inside `hostResults`. -/
theorem hostOps0_writes :
    (hostOps0 : List (HloOp τ sig (Elt F))).Forall fun op =>
      op.writes ⊆ (hostResults.map (Proc.devRef (τ := τ) .tc)).toFinset := by
  simp only [hostOps0, List.Forall, StableHlo.reshape_writes, StableHlo.nary_writes, Finset.singleton_subset_iff,
    hostResults, List.map_cons, List.map_nil, List.toFinset_cons, List.toFinset_nil, Finset.mem_insert,
    Finset.mem_singleton, true_or, or_true, and_self]

/-- An array that is none of the seven results is found by the region as launched. -/
theorem V_of_not_result (c : Dev nD) (r : Ref sig .tc) (hr : r ∉ hostResults) :
    V m c r = m ((c : Thread nD τ).loc r) :=
  StableHlo.after_of_writes_sub hostOps0 (fun b => m (c, b)) hostOps0_writes hr

/-- The thirteen argument arrays are no host operation's result: the region finds each as launched. -/
theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)
theorem V_main_arg8 (c : Dev nD) : V m c main_arg8 = m ((c : Thread nD τ).loc main_arg8) := V_of_not_result m c _ (by decide)
theorem V_main_arg9 (c : Dev nD) : V m c main_arg9 = m ((c : Thread nD τ).loc main_arg9) := V_of_not_result m c _ (by decide)
theorem V_main_arg10 (c : Dev nD) : V m c main_arg10 = m ((c : Thread nD τ).loc main_arg10) := V_of_not_result m c _ (by decide)
theorem V_main_arg11 (c : Dev nD) : V m c main_arg11 = m ((c : Thread nD τ).loc main_arg11) := V_of_not_result m c _ (by decide)
theorem V_main_arg12 (c : Dev nD) : V m c main_arg12 = m ((c : Thread nD τ).loc main_arg12) := V_of_not_result m c _ (by decide)

/-! ## The windows' blocks -/

/-- Window `w`'s block at grid point `t`: the part of its array, as the region finds it, that the window's
    index map selects there. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! Each of the ten input windows is uncut and never idle. For proof data whose array for the window is the
    region-entry contents and whose body leaves the window's buffer at its block, the buffer holds the block at
    EVERY point: where the pipeline fetches, the fetch puts it there; where it does not, the block index has not
    moved since the last fetch and the body left the block in place. -/

theorem before0_0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hblk : ∀ t, dat.blockOf 0 t = iblk m c 0 t := fun t => by unfold Dat.blockOf iblk; rw [hA]
  have hfetched : dat.fetched 0 t d = dat.blockOf 0 t := rfl
  rw [dat.before_in_eq_fetched 0 rfl (fun _ => rfl) (fun _ _ _ => rfl) (fun t => by rw [hafter, hblk]) t d,
    hfetched, hblk]

theorem before0_1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hblk : ∀ t, dat.blockOf 1 t = iblk m c 1 t := fun t => by unfold Dat.blockOf iblk; rw [hA]
  have hfetched : dat.fetched 1 t d = dat.blockOf 1 t := rfl
  rw [dat.before_in_eq_fetched 1 rfl (fun _ => rfl) (fun _ _ _ => rfl) (fun t => by rw [hafter, hblk]) t d,
    hfetched, hblk]

theorem before0_2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t := by
  have hblk : ∀ t, dat.blockOf 2 t = iblk m c 2 t := fun t => by unfold Dat.blockOf iblk; rw [hA]
  have hfetched : dat.fetched 2 t d = dat.blockOf 2 t := rfl
  rw [dat.before_in_eq_fetched 2 rfl (fun _ => rfl) (fun _ _ _ => rfl) (fun t => by rw [hafter, hblk]) t d,
    hfetched, hblk]

theorem before0_3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t := by
  have hblk : ∀ t, dat.blockOf 3 t = iblk m c 3 t := fun t => by unfold Dat.blockOf iblk; rw [hA]
  have hfetched : dat.fetched 3 t d = dat.blockOf 3 t := rfl
  rw [dat.before_in_eq_fetched 3 rfl (fun _ => rfl) (fun _ _ _ => rfl) (fun t => by rw [hafter, hblk]) t d,
    hfetched, hblk]

theorem before0_4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t := by
  have hblk : ∀ t, dat.blockOf 4 t = iblk m c 4 t := fun t => by unfold Dat.blockOf iblk; rw [hA]
  have hfetched : dat.fetched 4 t d = dat.blockOf 4 t := rfl
  rw [dat.before_in_eq_fetched 4 rfl (fun _ => rfl) (fun _ _ _ => rfl) (fun t => by rw [hafter, hblk]) t d,
    hfetched, hblk]

theorem before0_5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t := by
  have hblk : ∀ t, dat.blockOf 5 t = iblk m c 5 t := fun t => by unfold Dat.blockOf iblk; rw [hA]
  have hfetched : dat.fetched 5 t d = dat.blockOf 5 t := rfl
  rw [dat.before_in_eq_fetched 5 rfl (fun _ => rfl) (fun _ _ _ => rfl) (fun t => by rw [hafter, hblk]) t d,
    hfetched, hblk]

theorem before0_6_of {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t := by
  have hblk : ∀ t, dat.blockOf 6 t = iblk m c 6 t := fun t => by unfold Dat.blockOf iblk; rw [hA]
  have hfetched : dat.fetched 6 t d = dat.blockOf 6 t := rfl
  rw [dat.before_in_eq_fetched 6 rfl (fun _ => rfl) (fun _ _ _ => rfl) (fun t => by rw [hafter, hblk]) t d,
    hfetched, hblk]

theorem before0_7_of {c : Dev nD} (dat : Dat τ (Elt F) Unit ℕ (UR sig nD τ) ℕ cfg0 c)
    (hA : dat.A 7 = V m c (Pipeline.arrRef spec0 7)) (hafter : ∀ t, dat.after 7 t = iblk m c 7 t)
    (t : Fin cfg0.N) (d) : dat.before 7 t d = iblk m c 7 t := by
  have hblk : ∀ t, dat.blockOf 7 t = iblk m c 7 t := fun t => by unfold Dat.blockOf iblk; rw [hA]
  have hfetched : dat.fetched 7 t d = dat.blockOf 7 t := rfl
  rw [dat.before_in_eq_fetched 7 rfl (fun _ => rfl) (fun _ _ _ => rfl) (fun t => by rw [hafter, hblk]) t d,
    hfetched, hblk]

theorem before0_8_of {c : Dev nD} (dat : Dat τ (Elt F) Unit ℕ (UR sig nD τ) ℕ cfg0 c)
    (hA : dat.A 8 = V m c (Pipeline.arrRef spec0 8)) (hafter : ∀ t, dat.after 8 t = iblk m c 8 t)
    (t : Fin cfg0.N) (d) : dat.before 8 t d = iblk m c 8 t := by
  have hblk : ∀ t, dat.blockOf 8 t = iblk m c 8 t := fun t => by unfold Dat.blockOf iblk; rw [hA]
  have hfetched : dat.fetched 8 t d = dat.blockOf 8 t := rfl
  rw [dat.before_in_eq_fetched 8 rfl (fun _ => rfl) (fun _ _ _ => rfl) (fun t => by rw [hafter, hblk]) t d,
    hfetched, hblk]

theorem before0_9_of {c : Dev nD} (dat : Dat τ (Elt F) Unit ℕ (UR sig nD τ) ℕ cfg0 c)
    (hA : dat.A 9 = V m c (Pipeline.arrRef spec0 9)) (hafter : ∀ t, dat.after 9 t = iblk m c 9 t)
    (t : Fin cfg0.N) (d) : dat.before 9 t d = iblk m c 9 t := by
  have hblk : ∀ t, dat.blockOf 9 t = iblk m c 9 t := fun t => by unfold Dat.blockOf iblk; rw [hA]
  have hfetched : dat.fetched 9 t d = dat.blockOf 9 t := rfl
  rw [dat.before_in_eq_fetched 9 rfl (fun _ => rfl) (fun _ _ _ => rfl) (fun t => by rw [hafter, hblk]) t d,
    hfetched, hblk]

/-! ## The frame claim from a frame run -/

/-- From a run of @main ending in the pipeline library's frame post — every windowed array at what the proof
    data computes for it, every other unscoped array as the region found it — each argument array is as
    launched. Arguments 0, 1 and 8 are the arrays of the input windows 0, 1 and 5: an input window's array is
    never written back, so it ends at the proof data's entry contents, which are `V`'s. The other ten arguments
    are no window's array. In both cases `V` at an argument is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r hr c => ?_) h
  obtain ⟨hwin, hrest⟩ := hr c
  -- an argument that is an input window's array
  have staged : ∀ (w : Fin cfg0.W) (hw : (cfg0.win w).isOut = false),
      (dats 0 c).arrAt w (cfgs 0).N = V m c (Pipeline.arrRef spec0 w) := fun w hw =>
    ((dats 0 c).arrAt_in w hw _).trans (hA c w)
  -- an argument that is no window's array
  have unstaged : ∀ (b : Ref sig .tc) (hs : b.isScoped = false) (hb : ∀ w, (spec0 w).arr.view.ref ≠ b),
      r.2.mem ((c.tc : Thread nD τ).loc b) = V m c b :=
    fun b hs hb => hrest b (Pipeline.mem_restRefs_of b hs hb)
  exact ⟨((hwin 0).trans (staged 0 rfl)).trans (V_main_arg0 m c),
    ((hwin 1).trans (staged 1 rfl)).trans (V_main_arg1 m c),
    (unstaged main_arg2 (by decide) (by decide)).trans (V_main_arg2 m c),
    (unstaged main_arg3 (by decide) (by decide)).trans (V_main_arg3 m c),
    (unstaged main_arg4 (by decide) (by decide)).trans (V_main_arg4 m c),
    (unstaged main_arg5 (by decide) (by decide)).trans (V_main_arg5 m c),
    (unstaged main_arg6 (by decide) (by decide)).trans (V_main_arg6 m c),
    (unstaged main_arg7 (by decide) (by decide)).trans (V_main_arg7 m c),
    ((hwin 5).trans (staged 5 rfl)).trans (V_main_arg8 m c),
    (unstaged main_arg9 (by decide) (by decide)).trans (V_main_arg9 m c),
    (unstaged main_arg10 (by decide) (by decide)).trans (V_main_arg10 m c),
    (unstaged main_arg11 (by decide) (by decide)).trans (V_main_arg11 m c),
    (unstaged main_arg12 (by decide) (by decide)).trans (V_main_arg12 m c)⟩

/-! ## The body's accesses

Every load and the one store of the body go through the rectangle of the WHOLE buffer: offsets zero, the
buffer's own extents. One such rectangle per buffer shape. -/

abbrev rBlk : Rect S1x2048x512 := Rect.unit (s := S1x2048x512) ![0, 0, 0] S1x2048x512.size inb_S1x2048x512_S1x2048x512_0_0_0
abbrev rWd : Rect S64x2048 := Rect.unit (s := S64x2048) ![0, 0] S64x2048.size inb_S64x2048_S64x2048_0_0
abbrev rCol64 : Rect S64x1 := Rect.unit (s := S64x1) ![0, 0] S64x1.size inb_S64x1_S64x1_0_0
abbrev rW4 : Rect S256x64 := Rect.unit (s := S256x64) ![0, 0] S256x64.size inb_S256x64_S256x64_0_0
abbrev rWu : Rect S2048x64 := Rect.unit (s := S2048x64) ![0, 0] S2048x64.size inb_S2048x64_S2048x64_0_0
abbrev rCol2048 : Rect S2048x1 := Rect.unit (s := S2048x1) ![0, 0] S2048x1.size inb_S2048x1_S2048x1_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-! ## What the body leaves in the output window's buffer -/

/-- The output buffer after the body, as a function of the ten input blocks `x0 … x9` (windows 0 to 9, in
    order): the body's one store laid over the buffer, its payload the last value the body computes — from
    the first part's five results (functions of the blocks of windows 0, 1, 2, 3, 4 and 9) and the blocks of
    windows 5, 6, 7 and 8. -/
def out10 (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) : Vec F S1x2048x512 .f32 :=
  View.canon [⟨rBlk, k0_pay7 (k0_pay1 (View.ld x0 rBlk)) (k0_pay2 (View.ld x9 rOne))
      (k0_pay4 (View.ld x0 rBlk) (View.ld x1 rWd) (View.ld x2 rCol64) (View.ld x3 rW4) (View.ld x4 rCol64))
      (k0_pay5 (View.ld x0 rBlk) (View.ld x1 rWd) (View.ld x2 rCol64) (View.ld x3 rW4))
      (k0_pay6 (View.ld x0 rBlk) (View.ld x1 rWd) (View.ld x2 rCol64) (View.ld x3 rW4))
      (View.ld x5 rWu) (View.ld x6 rCol2048) (View.ld x7 rRow) (View.ld x8 rRow)⟩]

/-- The store's rectangle is the whole buffer, so every index of the buffer is under it. -/
theorem cover10 (p : rBlk.shape.Idx → Elt F .f32) (y : S1x2048x512.Idx) :
    ∃ pc ∈ ([⟨rBlk, p⟩] : List (View.Piece (Elt F) S1x2048x512 .f32)), y ∈ pc.1.set :=
  ⟨_, List.mem_singleton_self _,
    View.mem_set_unit_zero (S := S1x2048x512) (off := ![0, 0, 0]) (by funext a; fin_cases a <;> rfl)
      inb_S1x2048x512_S1x2048x512_0_0_0 y⟩

/-- One covering store leaves its payload: `out10` without the overlay, and the loads through the whole
    rectangles read the blocks themselves. -/
theorem out10_eq (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) :
    out10 x0 x1 x2 x3 x4 x5 x6 x7 x8 x9 = k0_pay7 (k0_pay1 x0) (k0_pay2 x9) (k0_pay4 x0 x1 x2 x3 x4) (k0_pay5 x0 x1 x2 x3) (k0_pay6 x0 x1 x2 x3) x5 x6 x7 x8 := by
  have z3 : (![0, 0, 0] : Fin 3 → Nat) = fun _ => 0 := by funext a; fin_cases a <;> rfl
  have z2 : (![0, 0] : Fin 2 → Nat) = fun _ => 0 := by funext a; fin_cases a <;> rfl
  unfold out10
  rw [View.canon_unit_zero (S := S1x2048x512) z3 inb_S1x2048x512_S1x2048x512_0_0_0,
    View.ld_unit_zero (S := S1x2048x512) z3 inb_S1x2048x512_S1x2048x512_0_0_0 x0,
    View.ld_unit_zero (S := S64x2048) z2 inb_S64x2048_S64x2048_0_0 x1,
    View.ld_unit_zero (S := S64x1) z2 inb_S64x1_S64x1_0_0 x2,
    View.ld_unit_zero (S := S256x64) z2 inb_S256x64_S256x64_0_0 x3,
    View.ld_unit_zero (S := S64x1) z2 inb_S64x1_S64x1_0_0 x4,
    View.ld_unit_zero (S := S2048x64) z2 inb_S2048x64_S2048x64_0_0 x5,
    View.ld_unit_zero (S := S2048x1) z2 inb_S2048x1_S2048x1_0_0 x6,
    View.ld_unit_zero (S := S1x512) z2 inb_S1x512_S1x512_0_0 x7,
    View.ld_unit_zero (S := S1x512) z2 inb_S1x512_S1x512_0_0 x8,
    View.ld_unit_zero (S := S1x1) z2 inb_S1x1_S1x1_0_0 x9]

/-! ## The body's triple -/

set_option maxHeartbeats 1000000 in
/-- The body, run on whole staging memrefs holding the ten input blocks `x0 … x9` and an output memref holding
    anything, reaches its continuation with the inputs as they were and the output at `out10` of the inputs.
    The body reads the output buffer once before storing over it; the value read is used by nothing. -/
theorem sound_kernel (c : Dev nD) (E : Set ℕ) (i : grid0.Coords) (arg1 : Memref sig .tc .vmem S1x2048x512 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S256x64 .f32) (harg4 : arg4.IsWhole) (arg5 : Memref sig .tc .vmem S64x1 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x2048x512 .f32) (harg11 : arg11.IsWhole)
    (x0 : Vec F S1x2048x512 .f32) (x1 : Vec F S64x2048 .f32) (x2 : Vec F S64x1 .f32) (x3 : Vec F S256x64 .f32) (x4 : Vec F S64x1 .f32) (x5 : Vec F S2048x64 .f32) (x6 : Vec F S2048x1 .f32) (x7 : Vec F S1x512 .f32) (x8 : Vec F S1x512 .f32) (x9 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The pipeline's proof data -/

/-- The proof data of the one pipeline on core `c`. The arrays at entry are the region-entry contents `V`. After
    the body at point `t`, each input window's buffer holds its block there, and the output window's buffer
    holds `out10` of the ten input blocks there. The invariant is the class's (the kernel's scratch and the
    generator register, neither of which this body touches); the core owes nothing; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (a projection of the definition; `V` is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) :
    (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input window's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is handed at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. The ten input buffers hold their blocks, so the body's triple applies with the blocks
    as the inputs; the invariant and what the core owes do not change from one point to the next and pass by
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point: its conjunction over the windows written out is
    `bodyPre` before and `bodyPost` after. -/
theorem body_obligation (c : Dev nD) :
    BodyObligation (dats (F := F) m 0 c) (defs₀ (F := F)) Variants.none () Set.univ := fun t => by
  rw [bigSep_W0, bigSep_W0]
  exact sound_body m c t

/-! ## The run and the frame -/

-- the library theorem's implicit arguments are found by unifying its conclusion with the statement below, which
-- needs plain definitions unfolded inside the type of a not-yet-known term
set_option backward.isDefEq.respectTransparency.types false in
/-- From any launch memory with all counters at zero, every weakly fair execution of @main on the cores
    terminates without fault, and at the end every windowed array holds what the proof data computes for it
    and every other unscoped array what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs to its end from any launch memory and leaves all thirteen argument arrays as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Frame

end
-- ==== Proof.Spec.lean ====
import Idealize.ShloMosaic.PureOps.Ideal
import Idealize.ShloMosaic.PureOps.Ideal.Laws

/-!
# The function both programs compute

For one batch, with `x` its `2048 × 512` slab of the input (every stage below is a function of that slab and of the weights):

* `low`      : `h[r,c] = (∑ l, Wd[r,l] · x[l,c]) + bd[r]`;
* `proj W`   : `(W h)[s,c] = ∑ r, W[s,r] · h[r,c]` for each of the four `64 × 64` matrices;
* `nrm W`    : `max (√(∑ s, (W h)[s,c]²)) ε₁`, the clamped Euclidean norm of a column;
* `unit W`   : the column divided by its clamped norm;
* `pooled`   : `g[s] = ∑ c, unit Wk [s,c] · (Wv h)[s,c]`;
* `gate`     : the logistic function of `(Wg h)[s,c] + bg[s]`;
* `attn`     : `unit Wq [s,c] · g[s] · gate[s,c]`;
* `mixed`    : `(∑ s, Wu[l,s] · attn[s,c]) + bu[l]`;
* `res`      : `x[l,c] + α · mixed[l,c]`;

and each row `res[l,·]` of 512 entries is then normalised: centred, divided by the square root of its variance plus
`ε₂`, scaled by `γ` and shifted by `β`. The two programs differ only in this last step: one takes the variance as
`E[o²] − (E o)²` with the mean as a product by `2⁻⁹` and multiplies by the reciprocal square root (`lnK`), the other
takes it as `E[(o − E o)²]` with the mean as a quotient by `512` and divides by the square root (`lnR`). On rows of
real numbers the two agree (`lnK_eq_lnR`), and every row is real when the inputs are (`res_real`).
-/

noncomputable section

namespace Cert.Spec

open Idealize.ShloMosaic
open scoped BigOperators

/-- The clamp of the column norms. -/
abbrev epsN : EReal := Ideal.ofBits .f32 0x2B8CBCCC#32
/-- The variance's offset. -/
abbrev epsL : EReal := Ideal.ofBits .f32 0x3727C5AC#32
/-- `2⁻⁹`, the reciprocal of the row length as the kernel spells it. -/
abbrev invC : EReal := Ideal.ofBits .f32 0x3B000000#32
/-- `512`, the row length as the reference spells it. -/
abbrev lenC : EReal := Ideal.ofBits .f32 0x44000000#32

section Stages

variable (x : Fin 2048 → Fin 512 → EReal) (Wd : Fin 64 → Fin 2048 → EReal) (bd : Fin 64 → EReal)
  (Wq Wk Wv Wg : Fin 64 → Fin 64 → EReal) (bg : Fin 64 → EReal)
  (Wu : Fin 2048 → Fin 64 → EReal) (bu : Fin 2048 → EReal) (α : EReal)

def low (r : Fin 64) (c : Fin 512) : EReal := (∑ l : Fin 2048, Wd r l * x l c) + bd r

def proj (W : Fin 64 → Fin 64 → EReal) (s : Fin 64) (c : Fin 512) : EReal :=
  ∑ r : Fin 64, W s r * low x Wd bd r c

def nrm (W : Fin 64 → Fin 64 → EReal) (c : Fin 512) : EReal :=
  max (Ideal.sqrt (∑ s : Fin 64, proj x Wd bd W s c * proj x Wd bd W s c)) epsN

def unit (W : Fin 64 → Fin 64 → EReal) (s : Fin 64) (c : Fin 512) : EReal :=
  Ideal.div (proj x Wd bd W s c) (nrm x Wd bd W c)

def pooled (s : Fin 64) : EReal :=
  ∑ c : Fin 512, unit x Wd bd Wk s c * proj x Wd bd Wv s c

def gate (s : Fin 64) (c : Fin 512) : EReal := Ideal.logistic (proj x Wd bd Wg s c + bg s)

def attn (s : Fin 64) (c : Fin 512) : EReal :=
  unit x Wd bd Wq s c * pooled x Wd bd Wk Wv s * gate x Wd bd Wg bg s c

def mixed (l : Fin 2048) (c : Fin 512) : EReal :=
  (∑ s : Fin 64, Wu l s * attn x Wd bd Wq Wk Wv Wg bg s c) + bu l

def res (l : Fin 2048) (c : Fin 512) : EReal :=
  x l c + α * mixed x Wd bd Wq Wk Wv Wg bg Wu bu l c

end Stages

/-- A row normalised the kernel's way. -/
def lnK (o γ β : Fin 512 → EReal) (c : Fin 512) : EReal :=
  (o c - (∑ k : Fin 512, o k) * invC)
      * Ideal.rsqrt ((∑ k : Fin 512, o k * o k) * invC - (∑ k : Fin 512, o k) * invC * ((∑ k : Fin 512, o k) * invC) + epsL)
      * γ c + β c

/-- A row normalised the reference's way. -/
def lnR (o γ β : Fin 512 → EReal) (c : Fin 512) : EReal :=
  Ideal.div (o c - Ideal.div (∑ k : Fin 512, o k) lenC)
      (Ideal.sqrt (Ideal.div (∑ k : Fin 512, (o k - Ideal.div (∑ k : Fin 512, o k) lenC) * (o k - Ideal.div (∑ k : Fin 512, o k) lenC)) lenC + epsL))
      * γ c + β c

section Results

variable (x : Fin 2048 → Fin 512 → EReal) (Wd : Fin 64 → Fin 2048 → EReal) (bd : Fin 64 → EReal)
  (Wq Wk Wv Wg : Fin 64 → Fin 64 → EReal) (bg : Fin 64 → EReal)
  (Wu : Fin 2048 → Fin 64 → EReal) (bu : Fin 2048 → EReal) (γ β : Fin 512 → EReal) (α : EReal)

/-- The kernel's result at row `l`, column `c` of the batch whose slab is `x`. -/
def outK (l : Fin 2048) (c : Fin 512) : EReal :=
  lnK (fun k => res x Wd bd Wq Wk Wv Wg bg Wu bu α l k) γ β c

/-- The reference's result there. -/
def outR (l : Fin 2048) (c : Fin 512) : EReal :=
  lnR (fun k => res x Wd bd Wq Wk Wv Wg bg Wu bu α l k) γ β c

end Results

end Cert.Spec

end
-- ==== Proof.BodyValue.lean ====
import proofs.«125835_j78022375899457_2_alg».proof.Proof.Gen.KernelIdeal.Skeleton
import proofs.«125835_j78022375899457_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The kernel body's stored value, read at an index

The body of the kernel computes, from the ten blocks it loads, one `1 × 2048 × 512` value and stores it. This module
reads that value at an index `(0, l, c)` and shows it is the specification's `outK` of the blocks: stage by stage,
each vector operation read at an index given by its coordinates, each contraction and each reduction re-indexed to a
sum over the coordinates of the contracted or reduced axis.
-/

noncomputable section

namespace Cert.KernelIdeal.BodyValue

open Cert.KernelIdeal Cert.KernelIdeal.Gen Idealize.ShloMosaic Idealize.ShloMosaic.ValueIdx
open scoped BigOperators

/-! ## Layout operations at an index given by coordinates -/

section Layout
variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Three unary operations at an index, at the ideal values -/

section Unary
variable {s : Shape} {φ : FTy}

/-- A square root at an index is the extended reals' square root of the element … -/
theorem sqrt_apply (a : FVec Ideal s φ) (i : s.Idx) : sqrt a i = Ideal.sqrt (a i) := rfl
/-- … a reciprocal square root theirs … -/
theorem rsqrt_apply (a : FVec Ideal s φ) (i : s.Idx) : rsqrt a i = Ideal.rsqrt (a i) := rfl
/-- … and a logistic function theirs. -/
theorem logistic_apply (a : FVec Ideal s φ) (i : s.Idx) : logistic a i = Ideal.logistic (a i) := rfl

end Unary

/-! ## A product of matrices at an index -/

/-- The dimension numbers of `M × K` by `K × N`. -/
abbrev mm (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- A matrix product into the zero accumulator reads, at `(r, c)`, the sum over the contracted coordinate. -/
theorem matmul_ix2_apply {M K N : ℕ} (wf : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) (r : Fin M) (c : Fin N) :
    matmul (mm M K N wf) none A B (constant ⟨2, ![M, N]⟩ .f32 0x00000000#32) (ix2 r c)
      = ∑ k : Fin K, A (ix2 r k) * B (ix2 k c) := by
  simp only [matmul]
  rw [Ideal.matmul_constant_zero_apply, ← Equiv.sum_comp (contrEquiv1 (mm M K N wf) K rfl rfl).symm]
  refine Finset.sum_congr rfl fun k _ => ?_
  have hk := contrEquiv1_symm_val (mm M K N wf) K rfl rfl k
  have el : (mm M K N wf).lhsIdx (ix2 r c) ((contrEquiv1 (mm M K N wf) K rfl rfl).symm k) = ix2 r k :=
    funext fun a => Fin.ext (by
      match a with
      | ⟨0, h0⟩ =>
        unfold DotDims.lhsIdx
        rw [dif_neg (show ¬(⟨0, h0⟩ : Fin (⟨2, ![M, K]⟩ : Shape).rank) ∈ (mm M K N wf).lhsBatch from List.not_mem_nil),
          dif_pos (show (⟨0, h0⟩ : Fin (⟨2, ![M, K]⟩ : Shape).rank) ∈ (mm M K N wf).lhsNonContracting from List.mem_singleton.mpr rfl)]
        rfl
      | ⟨1, _⟩ => exact ((mm M K N wf).lhsIdx_val_of_single rfl _ _).trans hk)
  have er : (mm M K N wf).rhsIdx (ix2 r c) ((contrEquiv1 (mm M K N wf) K rfl rfl).symm k) = ix2 k c :=
    funext fun a => Fin.ext (by
      match a with
      | ⟨0, _⟩ => exact ((mm M K N wf).rhsIdx_val_of_single rfl _ _).trans hk
      | ⟨1, h1⟩ =>
        unfold DotDims.rhsIdx
        rw [dif_neg (show ¬(⟨1, h1⟩ : Fin (⟨2, ![K, N]⟩ : Shape).rank) ∈ (mm M K N wf).rhsBatch from List.not_mem_nil),
          dif_pos (show (⟨1, h1⟩ : Fin (⟨2, ![K, N]⟩ : Shape).rank) ∈ (mm M K N wf).rhsNonContracting from List.mem_singleton.mpr rfl)]
        rfl)
  rw [el, er]

/-! ## Sums over one axis of a matrix -/

/-- A sum over the rows of an `[a, b]` array reads, at `c`, the sum over `k` of the array at `(k, c)`. -/
theorem reduce_rows_apply {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction (F := Ideal) .add [0] ⟨1, ![b]⟩ v 0x00000000#32 h hφ hacc (ix1 c) = ∑ k : Fin a, v (ix2 k c) := by
  rw [Ideal.multiReduction_add_single v _ h hφ hacc (ix1 c)]
  refine Finset.sum_congr rfl fun k _ => congrArg v (funext fun ax => Fin.ext ?_)
  match ax with
  | ⟨0, _⟩ => rfl
  | ⟨1, _⟩ => rfl

/-- A sum over the columns of an `[a, b]` array reads, at `r`, the sum over `k` of the array at `(r, k)`. -/
theorem reduce_cols_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ k : Fin b, v (ix2 r k) := by
  rw [Ideal.multiReduction_add_single v _ h hφ hacc (ix1 r)]
  refine Finset.sum_congr rfl fun k _ => congrArg v (funext fun ax => Fin.ext ?_)
  match ax with
  | ⟨0, _⟩ => rfl
  | ⟨1, _⟩ => rfl

/-! ## The body's stages over arbitrary vectors -/

/-- A `64 × 512` array divided, column by column, by the clamped Euclidean norm of the column, as the body spells it:
squares, a sum over the rows, a square root, a maximum with the clamp, a broadcast down the rows and a quotient. -/
def unitBody (V : FVec Ideal S64x512 .f32) : FVec Ideal S64x512 .f32 :=
  divf V (broadcastTo S64x512 (maximumf (sqrt (shapeCast S1x512
      (multiReduction (F := Ideal) .add [0] S512 (mulf V V) 0x00000000#32 reduces_S64x512_S512 (.inl rfl) rfl) shapeCasts_S512_S1x512))
      (broadcast S1x512 (Scalar.ofBits .f32 0x2B8CBCCC#32))) broadcasts_S1x512_S64x512)

theorem unitBody_apply (V : FVec Ideal S64x512 .f32) (s : Fin 64) (c : Fin 512) :
    unitBody V (ix2 s c)
      = Ideal.div (V (ix2 s c)) (max (Ideal.sqrt (∑ k : Fin 64, V (ix2 k c) * V (ix2 k c))) Cert.Spec.epsN) := by
  unfold unitBody
  rw [divf_apply, broadcastTo_1b_ab_apply, maximumf_apply, broadcast_apply, sqrt_apply, shapeCast_a_1a_apply,
    reduce_rows_apply (mulf V V) reduces_S64x512_S512 (.inl rfl) rfl c]
  rfl

/-- The attention product: the unit query times the pooled row sum, broadcast along the row, times the gate. -/
def attnBody (v21 v29 v38 : FVec Ideal S64x512 .f32) : FVec Ideal S64x512 .f32 :=
  mulf (mulf v29 (broadcastTo S64x512 (shapeCast S64x1
      (multiReduction (F := Ideal) .add [1] S64 v38 0x00000000#32 reduces_S64x512_S64 (.inl rfl) rfl) shapeCasts_S64_S64x1)
      broadcasts_S64x1_S64x512)) v21

theorem attnBody_apply (v21 v29 v38 : FVec Ideal S64x512 .f32) (s : Fin 64) (c : Fin 512) :
    attnBody v21 v29 v38 (ix2 s c) = v29 (ix2 s c) * (∑ j : Fin 512, v38 (ix2 s j)) * v21 (ix2 s c) := by
  unfold attnBody
  rw [mulf_apply, mulf_apply, broadcastTo_a1_ab_apply, shapeCast_a_a1_apply,
    reduce_cols_apply v38 reduces_S64x512_S64 (.inl rfl) rfl s]

/-- The residual: the slab plus the scale times (the third product plus its bias column). -/
def resBody (v1 : FVec Ideal S2048x512 .f32) (v3 : FVec Ideal S1x1 .f32) (A : FVec Ideal S64x512 .f32)
    (wu : FVec Ideal S2048x64 .f32) (buc : FVec Ideal S2048x1 .f32) : FVec Ideal S2048x512 .f32 :=
  addf v1 (mulf (broadcastTo S2048x512 v3 broadcasts_S1x1_S2048x512)
    (addf (matmul dot_S2048x64_S64x512_S2048x512_1_0_0_1_n_n none wu A (constant S2048x512 .f32 0x00000000#32))
      (broadcastTo S2048x512 (shapeCast S2048x1 buc shapeCasts_S2048x1_S2048x1) broadcasts_S2048x1_S2048x512)))

theorem resBody_apply (v1 : FVec Ideal S2048x512 .f32) (v3 : FVec Ideal S1x1 .f32) (A : FVec Ideal S64x512 .f32)
    (wu : FVec Ideal S2048x64 .f32) (buc : FVec Ideal S2048x1 .f32) (l : Fin 2048) (c : Fin 512) :
    resBody v1 v3 A wu buc (ix2 l c)
      = v1 (ix2 l c) + v3 (ix2 (0 : Fin 1) (0 : Fin 1))
          * ((∑ s : Fin 64, wu (ix2 l s) * A (ix2 s c)) + buc (ix2 l (0 : Fin 1))) := by
  unfold resBody
  rw [addf_apply, mulf_apply, addf_apply, broadcastTo_11_ab_apply, broadcastTo_a1_ab_apply, shapeCast_self]
  exact congrArg (fun t => v1 (ix2 l c) + v3 (ix2 (0 : Fin 1) (0 : Fin 1)) * (t + buc (ix2 l (0 : Fin 1))))
    (matmul_ix2_apply _ wu A l c)

/-! ## The row normalisation over an arbitrary `2048 × 512` array -/

/-- The sums of the rows, as a column. -/
def rowSum (O : FVec Ideal S2048x512 .f32) : FVec Ideal S2048x1 .f32 :=
  shapeCast S2048x1 (multiReduction (F := Ideal) .add [1] S2048 O 0x00000000#32 reduces_S2048x512_S2048 (.inl rfl) rfl)
    shapeCasts_S2048_S2048x1

theorem rowSum_apply (O : FVec Ideal S2048x512 .f32) (l : Fin 2048) (u : Fin 1) :
    rowSum O (ix2 l u) = ∑ k : Fin 512, O (ix2 l k) := by
  unfold rowSum
  rw [shapeCast_a_a1_apply, reduce_cols_apply O reduces_S2048x512_S2048 (.inl rfl) rfl l]

/-- The means of the rows: the row sums times the reciprocal of the row length. -/
def meanCol (O : FVec Ideal S2048x512 .f32) : FVec Ideal S2048x1 .f32 :=
  mulf (rowSum O) (broadcast S2048x1 (Scalar.ofBits .f32 0x3B000000#32))

theorem meanCol_apply (O : FVec Ideal S2048x512 .f32) (l : Fin 2048) (u : Fin 1) :
    meanCol O (ix2 l u) = (∑ k : Fin 512, O (ix2 l k)) * Cert.Spec.invC := by
  unfold meanCol
  rw [mulf_apply, rowSum_apply, broadcast_apply]
  rfl

/-- The reciprocal square roots of the rows' variances plus the offset; a variance as the mean of the squares less the
square of the mean. -/
def rstdCol (O : FVec Ideal S2048x512 .f32) : FVec Ideal S2048x1 .f32 :=
  rsqrt (addf (subf (mulf (rowSum (mulf O O)) (broadcast S2048x1 (Scalar.ofBits .f32 0x3B000000#32)))
      (mulf (meanCol O) (meanCol O))) (broadcast S2048x1 (Scalar.ofBits .f32 0x3727C5AC#32)))

theorem rstdCol_apply (O : FVec Ideal S2048x512 .f32) (l : Fin 2048) (u : Fin 1) :
    rstdCol O (ix2 l u) = Ideal.rsqrt ((∑ k : Fin 512, O (ix2 l k) * O (ix2 l k)) * Cert.Spec.invC
        - (∑ k : Fin 512, O (ix2 l k)) * Cert.Spec.invC * ((∑ k : Fin 512, O (ix2 l k)) * Cert.Spec.invC) + Cert.Spec.epsL) := by
  unfold rstdCol
  rw [rsqrt_apply, addf_apply, subf_apply, mulf_apply, mulf_apply, rowSum_apply, meanCol_apply, broadcast_apply, broadcast_apply]
  rfl

/-- The normalised rows, scaled and shifted, as a `1 × 2048 × 512` block. -/
def lnBody (O : FVec Ideal S2048x512 .f32) (gm bt : FVec Ideal S1x512 .f32) : FVec Ideal S1x2048x512 .f32 :=
  shapeCast S1x2048x512
    (addf (mulf (mulf (subf O (broadcastTo S2048x512 (meanCol O) broadcasts_S2048x1_S2048x512))
        (broadcastTo S2048x512 (rstdCol O) broadcasts_S2048x1_S2048x512))
        (broadcastTo S2048x512 (shapeCast S1x512 gm shapeCasts_S1x512_S1x512) broadcasts_S1x512_S2048x512))
      (broadcastTo S2048x512 (shapeCast S1x512 bt shapeCasts_S1x512_S1x512) broadcasts_S1x512_S2048x512))
    shapeCasts_S2048x512_S1x2048x512

theorem lnBody_apply (O : FVec Ideal S2048x512 .f32) (gm bt : FVec Ideal S1x512 .f32) (l : Fin 2048) (c : Fin 512) :
    lnBody O gm bt (ix3 (0 : Fin 1) l c)
      = Cert.Spec.lnK (fun k => O (ix2 l k)) (fun c => gm (ix2 (0 : Fin 1) c)) (fun c => bt (ix2 (0 : Fin 1) c)) c := by
  unfold lnBody
  rw [shapeCast_ab_1ab_apply, addf_apply, mulf_apply, mulf_apply, subf_apply, broadcastTo_a1_ab_apply,
    broadcastTo_a1_ab_apply, broadcastTo_1b_ab_apply, broadcastTo_1b_ab_apply, shapeCast_self, shapeCast_self,
    meanCol_apply, rstdCol_apply]
  rfl

/-! ## The body's payloads as compositions of the stages -/

/-- Row `s` of the `q`-th band of 64 rows of the stacked `256 × 64` matrix. -/
def stk (q : Fin 4) (s : Fin 64) : Fin 256 := ⟨64 * q.val + s.val, by omega⟩

/-- A band of 64 rows of a `256 × 512` array, cut at row offset `64 q`, reads at `(s, c)` the array at row `stk q s`. -/
theorem band_apply (P : FVec Ideal S256x512 .f32) (o : ℕ) (h : S256x512.Slices ![o, 0] S64x512) (q : Fin 4)
    (ho : o = 64 * q.val) (s : Fin 64) (c : Fin 512) :
    extractStridedSlice S64x512 ![o, 0] P h (ix2 s c) = P (ix2 (stk q s) c) :=
  slice2_axis0_apply o P h s c (stk q s) (by rw [ho]; rfl)

/-- The first product plus its bias column: the low-rank image of the slab. -/
def lowBody (x0 : FVec Ideal S1x2048x512 .f32) (wd : FVec Ideal S64x2048 .f32) (bdc : FVec Ideal S64x1 .f32) :
    FVec Ideal S64x512 .f32 :=
  addf (matmul dot_S64x2048_S2048x512_S64x512_1_0_0_1_n_n none wd (k0_pay1 x0) (constant S64x512 .f32 0x00000000#32))
    (broadcastTo S64x512 (shapeCast S64x1 bdc shapeCasts_S64x1_S64x1) broadcasts_S64x1_S64x512)

section Blocks

variable (x0 : Vec Ideal S1x2048x512 .f32) (wd : Vec Ideal S64x2048 .f32) (bdc : Vec Ideal S64x1 .f32)
  (w4 : Vec Ideal S256x64 .f32) (bgc : Vec Ideal S64x1 .f32) (wu : Vec Ideal S2048x64 .f32)
  (buc : Vec Ideal S2048x1 .f32) (gm bt : Vec Ideal S1x512 .f32) (al : Vec Ideal S1x1 .f32)

/-- The blocks as functions of their coordinates: the slab, the first matrix, its bias … -/
abbrev X : Fin 2048 → Fin 512 → EReal := fun l c => x0 (ix3 (0 : Fin 1) l c)
abbrev WD : Fin 64 → Fin 2048 → EReal := fun r l => wd (ix2 r l)
abbrev BD : Fin 64 → EReal := fun r => bdc (ix2 r (0 : Fin 1))
/-- … the `q`-th band of the stacked matrix … -/
abbrev W (q : Fin 4) : Fin 64 → Fin 64 → EReal := fun s r => w4 (ix2 (stk q s) r)
/-- … the gate's bias, the last matrix and its bias, the scale and the shift of the normalisation. -/
abbrev BG : Fin 64 → EReal := fun s => bgc (ix2 s (0 : Fin 1))
abbrev WU : Fin 2048 → Fin 64 → EReal := fun l s => wu (ix2 l s)
abbrev BU : Fin 2048 → EReal := fun l => buc (ix2 l (0 : Fin 1))
abbrev GM : Fin 512 → EReal := fun c => gm (ix2 (0 : Fin 1) c)
abbrev BT : Fin 512 → EReal := fun c => bt (ix2 (0 : Fin 1) c)

theorem lowBody_apply (r : Fin 64) (c : Fin 512) :
    lowBody x0 wd bdc (ix2 r c) = Cert.Spec.low (X x0) (WD wd) (BD bdc) r c := by
  unfold lowBody Cert.Spec.low
  rw [addf_apply, broadcastTo_a1_ab_apply, shapeCast_self]
  refine congrArg (· + bdc (ix2 r (0 : Fin 1))) ?_
  refine (matmul_ix2_apply _ wd (k0_pay1 x0) r c).trans ?_
  refine Finset.sum_congr rfl fun l _ => congrArg (wd (ix2 r l) * ·) ?_
  exact shapeCast_1ab_ab_apply x0 _ l c

theorem pay3_eq : k0_pay3 (F := Ideal) x0 wd bdc w4
    = matmul (φ₁ := .f32) dot_S256x64_S64x512_S256x512_1_0_0_1_n_n none (shapeCast S256x64 w4 shapeCasts_S256x64_S256x64)
        (lowBody x0 wd bdc) (constant S256x512 .f32 0x00000000#32) := rfl

/-- The stacked product at row `s` of band `q` is the projection by that band of the stacked matrix. -/
theorem pay3_apply (q : Fin 4) (s : Fin 64) (c : Fin 512) :
    k0_pay3 (F := Ideal) x0 wd bdc w4 (ix2 (stk q s) c) = Cert.Spec.proj (X x0) (WD wd) (BD bdc) (W w4 q) s c := by
  rw [pay3_eq]
  unfold Cert.Spec.proj
  refine (matmul_ix2_apply _ _ (lowBody x0 wd bdc) (stk q s) c).trans ?_
  refine Finset.sum_congr rfl fun r _ => ?_
  rw [shapeCast_self, lowBody_apply]

end Blocks

/-! ## The payloads read at an index -/

section Payloads

variable (x0 : Vec Ideal S1x2048x512 .f32) (wd : Vec Ideal S64x2048 .f32) (bdc : Vec Ideal S64x1 .f32)
  (w4 : Vec Ideal S256x64 .f32) (bgc : Vec Ideal S64x1 .f32) (wu : Vec Ideal S2048x64 .f32)
  (buc : Vec Ideal S2048x1 .f32) (gm bt : Vec Ideal S1x512 .f32) (al : Vec Ideal S1x1 .f32)

/-- The slab without its unit axis. -/
theorem pay1_apply (l : Fin 2048) (c : Fin 512) : k0_pay1 (F := Ideal) x0 (ix2 l c) = x0 (ix3 (0 : Fin 1) l c) :=
  shapeCast_1ab_ab_apply x0 _ l c

/-- The scale, cast to its own shape. -/
theorem pay2_eq : k0_pay2 (F := Ideal) al = al := shapeCast_self al _

/-- A band of the stacked product is the projection by that band of the stacked matrix. -/
theorem band_pay3_apply (o : ℕ) (h : S256x512.Slices ![o, 0] S64x512) (q : Fin 4) (ho : o = 64 * q.val)
    (s : Fin 64) (c : Fin 512) :
    extractStridedSlice S64x512 ![o, 0] (k0_pay3 (F := Ideal) x0 wd bdc w4) h (ix2 s c)
      = Cert.Spec.proj (X x0) (WD wd) (BD bdc) (W w4 q) s c :=
  (band_apply _ o h q ho s c).trans (pay3_apply x0 wd bdc w4 q s c)

theorem pay5_eq : k0_pay5 (F := Ideal) x0 wd bdc w4
    = unitBody (extractStridedSlice S64x512 ![0, 0] (k0_pay3 x0 wd bdc w4) slices_S256x512_o0_0_S64x512) := rfl

/-- The first band divided by its columns' clamped norms: the unit query. -/
theorem pay5_apply (s : Fin 64) (c : Fin 512) :
    k0_pay5 (F := Ideal) x0 wd bdc w4 (ix2 s c) = Cert.Spec.unit (X x0) (WD wd) (BD bdc) (W w4 0) s c := by
  rw [pay5_eq, unitBody_apply]
  unfold Cert.Spec.unit Cert.Spec.nrm
  simp only [band_pay3_apply x0 wd bdc w4 0 slices_S256x512_o0_0_S64x512 0 rfl]

theorem pay6_eq : k0_pay6 (F := Ideal) x0 wd bdc w4
    = mulf (unitBody (extractStridedSlice S64x512 ![64, 0] (k0_pay3 x0 wd bdc w4) slices_S256x512_o64_0_S64x512))
        (extractStridedSlice S64x512 ![128, 0] (k0_pay3 x0 wd bdc w4) slices_S256x512_o128_0_S64x512) := rfl

/-- The unit key times the value. -/
theorem pay6_apply (s : Fin 64) (c : Fin 512) :
    k0_pay6 (F := Ideal) x0 wd bdc w4 (ix2 s c)
      = Cert.Spec.unit (X x0) (WD wd) (BD bdc) (W w4 1) s c * Cert.Spec.proj (X x0) (WD wd) (BD bdc) (W w4 2) s c := by
  rw [pay6_eq, mulf_apply, unitBody_apply]
  unfold Cert.Spec.unit Cert.Spec.nrm
  simp only [band_pay3_apply x0 wd bdc w4 64 slices_S256x512_o64_0_S64x512 1 rfl,
    band_pay3_apply x0 wd bdc w4 128 slices_S256x512_o128_0_S64x512 2 rfl]

theorem pay4_eq : k0_pay4 (F := Ideal) x0 wd bdc w4 bgc
    = logistic (addf (extractStridedSlice S64x512 ![192, 0] (k0_pay3 x0 wd bdc w4) slices_S256x512_o192_0_S64x512)
        (broadcastTo S64x512 (shapeCast S64x1 bgc shapeCasts_S64x1_S64x1) broadcasts_S64x1_S64x512)) := rfl

/-- The gate: the logistic function of the last band plus its bias column. -/
theorem pay4_apply (s : Fin 64) (c : Fin 512) :
    k0_pay4 (F := Ideal) x0 wd bdc w4 bgc (ix2 s c)
      = Cert.Spec.gate (X x0) (WD wd) (BD bdc) (W w4 3) (BG bgc) s c := by
  rw [pay4_eq, logistic_apply, addf_apply, broadcastTo_a1_ab_apply, shapeCast_self,
    band_pay3_apply x0 wd bdc w4 192 slices_S256x512_o192_0_S64x512 3 rfl]
  rfl

/-- The attention product of the three payloads is the specification's. -/
theorem attn_apply (s : Fin 64) (c : Fin 512) :
    attnBody (k0_pay4 (F := Ideal) x0 wd bdc w4 bgc) (k0_pay5 (F := Ideal) x0 wd bdc w4) (k0_pay6 (F := Ideal) x0 wd bdc w4)
        (ix2 s c)
      = Cert.Spec.attn (X x0) (WD wd) (BD bdc) (W w4 0) (W w4 1) (W w4 2) (W w4 3) (BG bgc) s c := by
  rw [attnBody_apply, pay5_apply, pay4_apply]
  unfold Cert.Spec.attn Cert.Spec.pooled
  simp only [pay6_apply]

theorem pay7_eq (v1 : FVec Ideal S2048x512 .f32) (v3 : FVec Ideal S1x1 .f32) (v21 v29 v38 : FVec Ideal S64x512 .f32) :
    k0_pay7 (F := Ideal) v1 v3 v21 v29 v38 wu buc gm bt
      = lnBody (resBody v1 v3 (attnBody v21 v29 v38) wu buc) gm bt := rfl

/-- The body's stored value at `(0, l, c)`, over the blocks as functions of their coordinates. -/
theorem body_apply_coords (l : Fin 2048) (c : Fin 512) :
    k0_pay7 (F := Ideal) (k0_pay1 x0) (k0_pay2 al) (k0_pay4 x0 wd bdc w4 bgc) (k0_pay5 x0 wd bdc w4)
        (k0_pay6 x0 wd bdc w4) wu buc gm bt (ix3 (0 : Fin 1) l c)
      = Cert.Spec.outK (X x0) (WD wd) (BD bdc) (W w4 0) (W w4 1) (W w4 2) (W w4 3) (BG bgc) (WU wu) (BU buc)
          (GM gm) (BT bt) (al (ix2 (0 : Fin 1) (0 : Fin 1))) l c := by
  rw [pay7_eq, lnBody_apply]
  unfold Cert.Spec.outK
  refine congrArg (fun o => Cert.Spec.lnK o (GM gm) (BT bt) c) (funext fun k => ?_)
  rw [resBody_apply, pay1_apply, pay2_eq]
  unfold Cert.Spec.res Cert.Spec.mixed
  simp only [attn_apply]

end Payloads

/-- THE BODY'S STORED VALUE AT `(0, l, c)` is the specification's `outK` of the ten blocks. -/
theorem body_apply (x0 : Vec Ideal S1x2048x512 .f32) (wd : Vec Ideal S64x2048 .f32) (bdc : Vec Ideal S64x1 .f32)
    (w4 : Vec Ideal S256x64 .f32) (bgc : Vec Ideal S64x1 .f32) (wu : Vec Ideal S2048x64 .f32)
    (buc : Vec Ideal S2048x1 .f32) (gm : Vec Ideal S1x512 .f32) (bt : Vec Ideal S1x512 .f32) (al : Vec Ideal S1x1 .f32)
    (l : Fin 2048) (c : Fin 512) :
    k0_pay7 (F := Ideal) (k0_pay1 x0) (k0_pay2 al) (k0_pay4 x0 wd bdc w4 bgc) (k0_pay5 x0 wd bdc w4)
        (k0_pay6 x0 wd bdc w4) wu buc gm bt (ValueIdx.ix3 (0 : Fin 1) l c)
      = Cert.Spec.outK (fun l c => x0 (ValueIdx.ix3 (0 : Fin 1) l c)) (fun r l => wd (ValueIdx.ix2 r l))
          (fun r => bdc (ValueIdx.ix2 r (0 : Fin 1)))
          (fun s r => w4 (ValueIdx.ix2 (stk 0 s) r)) (fun s r => w4 (ValueIdx.ix2 (stk 1 s) r))
          (fun s r => w4 (ValueIdx.ix2 (stk 2 s) r)) (fun s r => w4 (ValueIdx.ix2 (stk 3 s) r))
          (fun s => bgc (ValueIdx.ix2 s (0 : Fin 1))) (fun l s => wu (ValueIdx.ix2 l s))
          (fun l => buc (ValueIdx.ix2 l (0 : Fin 1)))
          (fun c => gm (ValueIdx.ix2 (0 : Fin 1) c)) (fun c => bt (ValueIdx.ix2 (0 : Fin 1) c))
          (al (ValueIdx.ix2 (0 : Fin 1) (0 : Fin 1))) l c :=
  body_apply_coords x0 wd bdc w4 bgc wu buc gm bt al l c

end Cert.KernelIdeal.BodyValue

end
-- ==== Proof.HostPrefix.lean ====
import proofs.«125835_j78022375899457_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

/-!
# The arrays the region finds, read at an index

Before its one region the program reshapes three vectors to columns, two vectors to rows and a scalar to a
`1 × 1` array, and stacks the four `64 × 64` matrices into one of `256` rows. Each result, read at an index, is the
argument it was made from at the matching index.
-/

noncomputable section

namespace Cert.KernelIdeal.HostPrefix

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- What a TensorCore buffer of core `c` holds when the region is entered. -/
abbrev found (b : Ref sig .tc) : Buf (Elt Ideal) ((c : Thread nD τ).loc b) :=
  StableHlo.after (hostOps0 (F := Ideal)) (fun b => m (c, b)) b

/-! ## A vector cast to a column, and a scalar cast to a `1 × 1` array -/

/-- An `[n]` array cast to `[n, 1]` reads, at `(i, u)`, the operand at `i`. -/
theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar cast to `[1, 1]` reads the scalar. -/
theorem shapeCast_0_11_apply {α : Type} (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  shapeCast_apply x h _ _ (by
    have hu : u.val = 0 := by omega
    have hv : v.val = 0 := by omega
    have h0 := ((⟨0, ![]⟩ : Shape).rowMajor ix0).isLt
    have hn : (⟨0, ![]⟩ : Shape).numel = 1 := by decide
    rw [Shape.rowMajor_val_two]
    show ((⟨0, ![]⟩ : Shape).rowMajor ix0).val = u.val * 1 + v.val
    omega)

/-! ## The three columns -/

theorem found_bd (r : Fin 64) :
    (found m c main_v0 : S64x1.Idx → EReal) (ix2 r (0 : Fin 1))
      = (m ((c : Thread nD τ).loc main_arg2) : S64.Idx → EReal) (ix1 r) := by
  have h : (found m c main_v0 : S64x1.Idx → EReal)
      = shapeCast S64x1 (m ((c : Thread nD τ).loc main_arg2) : S64.Idx → EReal) Facts₀.shapeCasts_S64_S64x1 := by
    show StableHlo.after hostOps0 (fun b => m (c, b)) (Proc.devRef .tc main_v0) = _
    after_results
    rfl
  rw [h]
  exact shapeCast_a_a1_apply _ _ r 0

theorem found_bg (s : Fin 64) :
    (found m c main_v1 : S64x1.Idx → EReal) (ix2 s (0 : Fin 1))
      = (m ((c : Thread nD τ).loc main_arg7) : S64.Idx → EReal) (ix1 s) := by
  have h : (found m c main_v1 : S64x1.Idx → EReal)
      = shapeCast S64x1 (m ((c : Thread nD τ).loc main_arg7) : S64.Idx → EReal) Facts₀.shapeCasts_S64_S64x1 := by
    show StableHlo.after hostOps0 (fun b => m (c, b)) (Proc.devRef .tc main_v1) = _
    after_results
    rfl
  rw [h]
  exact shapeCast_a_a1_apply _ _ s 0

theorem found_bu (l : Fin 2048) :
    (found m c main_v2 : S2048x1.Idx → EReal) (ix2 l (0 : Fin 1))
      = (m ((c : Thread nD τ).loc main_arg9) : S2048.Idx → EReal) (ix1 l) := by
  have h : (found m c main_v2 : S2048x1.Idx → EReal)
      = shapeCast S2048x1 (m ((c : Thread nD τ).loc main_arg9) : S2048.Idx → EReal) Facts₀.shapeCasts_S2048_S2048x1 := by
    show StableHlo.after hostOps0 (fun b => m (c, b)) (Proc.devRef .tc main_v2) = _
    after_results
    rfl
  rw [h]
  exact shapeCast_a_a1_apply _ _ l 0

/-! ## The two rows and the scalar -/

theorem found_gamma (k : Fin 512) :
    (found m c main_v4 : S1x512.Idx → EReal) (ix2 (0 : Fin 1) k)
      = (m ((c : Thread nD τ).loc main_arg10) : S512.Idx → EReal) (ix1 k) := by
  have h : (found m c main_v4 : S1x512.Idx → EReal)
      = shapeCast S1x512 (m ((c : Thread nD τ).loc main_arg10) : S512.Idx → EReal) Facts₀.shapeCasts_S512_S1x512 := by
    show StableHlo.after hostOps0 (fun b => m (c, b)) (Proc.devRef .tc main_v4) = _
    after_results
    rfl
  rw [h]
  exact shapeCast_a_1a_apply _ _ 0 k

theorem found_beta (k : Fin 512) :
    (found m c main_v5 : S1x512.Idx → EReal) (ix2 (0 : Fin 1) k)
      = (m ((c : Thread nD τ).loc main_arg11) : S512.Idx → EReal) (ix1 k) := by
  have h : (found m c main_v5 : S1x512.Idx → EReal)
      = shapeCast S1x512 (m ((c : Thread nD τ).loc main_arg11) : S512.Idx → EReal) Facts₀.shapeCasts_S512_S1x512 := by
    show StableHlo.after hostOps0 (fun b => m (c, b)) (Proc.devRef .tc main_v5) = _
    after_results
    rfl
  rw [h]
  exact shapeCast_a_1a_apply _ _ 0 k

theorem found_alpha :
    (found m c main_v6 : S1x1.Idx → EReal) (ix2 (0 : Fin 1) (0 : Fin 1))
      = (m ((c : Thread nD τ).loc main_arg12) : S_.Idx → EReal) ix0 := by
  have h : (found m c main_v6 : S1x1.Idx → EReal)
      = shapeCast S1x1 (m ((c : Thread nD τ).loc main_arg12) : S_.Idx → EReal) Facts₀.shapeCasts_S_S1x1 := by
    show StableHlo.after hostOps0 (fun b => m (c, b)) (Proc.devRef .tc main_v6) = _
    after_results
    rfl
  rw [h]
  exact shapeCast_0_11_apply _ _ 0 0

/-! ## The four matrices stacked -/

/-- The stacked array is the concatenation, along the rows, of the four matrices as launched. -/
theorem found_stack_eq :
    (found m c main_v3 : S256x64.Idx → EReal)
      = concatenate S256x64 0
          [⟨S64x64, (m ((c : Thread nD τ).loc main_arg3) : S64x64.Idx → EReal)⟩,
           ⟨S64x64, (m ((c : Thread nD τ).loc main_arg4) : S64x64.Idx → EReal)⟩,
           ⟨S64x64, (m ((c : Thread nD τ).loc main_arg5) : S64x64.Idx → EReal)⟩,
           ⟨S64x64, (m ((c : Thread nD τ).loc main_arg6) : S64x64.Idx → EReal)⟩]
          Facts₀.concatenates_S64x64_S64x64_S64x64_S64x64_S256x64_d0 := by
  show StableHlo.after hostOps0 (fun b => m (c, b)) (Proc.devRef .tc main_v3) = _
  after_results
  rfl

/-! Row `i` of the stack is row `i`, `i - 64`, `i - 128` or `i - 192` of the first, second, third or fourth matrix. -/

theorem found_stack0 (i : Fin 256) (s r : Fin 64) (hi : i.val = s.val) :
    (found m c main_v3 : S256x64.Idx → EReal) (ix2 i r)
      = (m ((c : Thread nD τ).loc main_arg3) : S64x64.Idx → EReal) (ix2 s r) := by
  rw [found_stack_eq]
  refine concatenate_apply_piece (0 : Fin S256x64.rank) _ _ (ix2 i r) 0 (by show 0 < 4; omega) S64x64 _ rfl rfl 0 rfl
    (ix2 s r) ?_ ?_
  · intro b hb
    match b with
    | ⟨0, _⟩ => exact absurd rfl hb
    | ⟨1, _⟩ => rfl
  · show 0 + s.val = i.val
    omega

theorem found_stack1 (i : Fin 256) (s r : Fin 64) (hi : i.val = 64 + s.val) :
    (found m c main_v3 : S256x64.Idx → EReal) (ix2 i r)
      = (m ((c : Thread nD τ).loc main_arg4) : S64x64.Idx → EReal) (ix2 s r) := by
  rw [found_stack_eq]
  refine concatenate_apply_piece (0 : Fin S256x64.rank) _ _ (ix2 i r) 1 (by show 1 < 4; omega) S64x64 _ rfl rfl 64 rfl
    (ix2 s r) ?_ ?_
  · intro b hb
    match b with
    | ⟨0, _⟩ => exact absurd rfl hb
    | ⟨1, _⟩ => rfl
  · show 64 + s.val = i.val
    omega

theorem found_stack2 (i : Fin 256) (s r : Fin 64) (hi : i.val = 128 + s.val) :
    (found m c main_v3 : S256x64.Idx → EReal) (ix2 i r)
      = (m ((c : Thread nD τ).loc main_arg5) : S64x64.Idx → EReal) (ix2 s r) := by
  rw [found_stack_eq]
  refine concatenate_apply_piece (0 : Fin S256x64.rank) _ _ (ix2 i r) 2 (by show 2 < 4; omega) S64x64 _ rfl rfl 128 rfl
    (ix2 s r) ?_ ?_
  · intro b hb
    match b with
    | ⟨0, _⟩ => exact absurd rfl hb
    | ⟨1, _⟩ => rfl
  · show 128 + s.val = i.val
    omega

theorem found_stack3 (i : Fin 256) (s r : Fin 64) (hi : i.val = 192 + s.val) :
    (found m c main_v3 : S256x64.Idx → EReal) (ix2 i r)
      = (m ((c : Thread nD τ).loc main_arg6) : S64x64.Idx → EReal) (ix2 s r) := by
  rw [found_stack_eq]
  refine concatenate_apply_piece (0 : Fin S256x64.rank) _ _ (ix2 i r) 3 (by show 3 < 4; omega) S64x64 _ rfl rfl 192 rfl
    (ix2 s r) ?_ ?_
  · intro b hb
    match b with
    | ⟨0, _⟩ => exact absurd rfl hb
    | ⟨1, _⟩ => rfl
  · show 192 + s.val = i.val
    omega

end Cert.KernelIdeal.HostPrefix

end
-- ==== Proof.KernelValue.lean ====
import proofs.«125835_j78022375899457_2_alg».proof.Proof.FrameIdeal
import proofs.«125835_j78022375899457_2_alg».proof.Proof.BodyValue
import proofs.«125835_j78022375899457_2_alg».proof.Proof.HostPrefix
import proofs.«125835_j78022375899457_2_alg».proof.Proof.Spec
import Idealize.ShloMosaic.Lib.Pipeline.Value
import Idealize.ShloMosaic.Lib.ValueIdx

/-!
# The kernel's result array as one function of the arguments

The grid has 64 points; point `t` is handed slab `t` of the input (all of every other operand) and writes block `t` of
the result. A block's coordinate is always *block index × block extent + coordinate inside the block*, so with the
printed index maps decided over the 64 points each input block is the argument read at the corresponding place
(`iblkN_apply`; the operands the host prepares — three column reshapes, two row reshapes, the scalar, and the four
`64 × 64` matrices stacked into one `256 × 64` — are read through the host's operations). The body's stored value at an
index of the block is then the specification's value at that index's place in the array (`stored_apply`), the 64
blocks tile the array (an index lies in the block numbered by its batch coordinate), and so the array ends holding
`G` (`final`, `run`).
-/

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Frame
open Idealize.ShloMosaic.ValueIdx

variable (m : (ℓ : Loc nD τ sig) → Buf (Elt Ideal) ℓ) (ρ : Dev nD → PrngReg)

/-- The printed index maps over the grid's 64 points: the input slab and the output block follow the point along the batch
    axis; every other window stays at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

/-- A grid point as a batch number. -/
def batch (t : Fin cfg0.N) : Fin 64 := ⟨t.val, Nat.lt_of_lt_of_eq t.isLt N_0⟩

/-- The input slab's block at point `t` is batch `t` of the input. -/
theorem iblk0_apply (c : Dev nD) (t : Fin cfg0.N) (l : Fin 2048) (k : Fin 512) :
    (iblk m c 0 t : S1x2048x512.Idx → EReal) (ix3 (0 : Fin 1) l k)
      = (m ((c : Thread nD τ).loc main_arg0) : S64x2048x512.Idx → EReal) (ix3 (batch t) l k) := by
  obtain ⟨⟨h0, h1, h2⟩, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; rw [h0]; omega
  | ⟨1, _⟩ => show win0_0.index t (1 : Fin 3) * 2048 + 1 * l.val = l.val; rw [h1]; omega
  | ⟨2, _⟩ => show win0_0.index t (2 : Fin 3) * 512 + 1 * k.val = k.val; rw [h2]; omega

/-- The first weight's window is the whole array at every point. -/
theorem iblk1_apply (c : Dev nD) (t : Fin cfg0.N) (r : Fin 64) (l : Fin 2048) :
    (iblk m c 1 t : S64x2048.Idx → EReal) (ix2 r l)
      = (m ((c : Thread nD τ).loc main_arg1) : S64x2048.Idx → EReal) (ix2 r l) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t (0 : Fin 2) * 64 + 1 * r.val = r.val; rw [h0]; omega
  | ⟨1, _⟩ => show win0_1.index t (1 : Fin 2) * 2048 + 1 * l.val = l.val; rw [h1]; omega

/-- So is the last weight's. -/
theorem iblk5_apply (c : Dev nD) (t : Fin cfg0.N) (l : Fin 2048) (s : Fin 64) :
    (iblk m c 5 t : S2048x64.Idx → EReal) (ix2 l s)
      = (m ((c : Thread nD τ).loc main_arg8) : S2048x64.Idx → EReal) (ix2 l s) := by
  obtain ⟨-, -, -, -, -, ⟨h0, h1⟩, -⟩ := idx_facts t
  unfold iblk
  rw [View.read_apply]
  show V m c main_arg8 _ = _
  rw [V_main_arg8]
  congr 1
  funext a
  apply Fin.ext
  match a with
  | ⟨0, _⟩ => show win0_5.index t (0 : Fin 2) * 2048 + 1 * l.val = l.val; rw [h0]; omega
  | ⟨1, _⟩ => show win0_5.index t (1 : Fin 2) * 64 + 1 * s.val = s.val; rw [h1]; omega

/-- The first bias column's window is the bias, reshaped by the host. -/
theorem iblk2_apply (c : Dev nD) (t : Fin cfg0.N) (r : Fin 64) :
    (iblk m c 2 t : S64x1.Idx → EReal) (ix2 r (0 : Fin 1))
      = (m ((c : Thread nD τ).loc main_arg2) : S64.Idx → EReal) (ix1 r) := by
  obtain ⟨-, -, ⟨h0, h1⟩, -⟩ := idx_facts t
  unfold iblk
  rw [View.read_apply]
  refine Eq.trans ?_ (HostPrefix.found_bd m c r)
  show V m c main_v0 _ = V m c main_v0 _
  congr 1
  funext a
  apply Fin.ext
  match a with
  | ⟨0, _⟩ => show win0_2.index t (0 : Fin 2) * 64 + 1 * r.val = r.val; rw [h0]; omega
  | ⟨1, _⟩ => show win0_2.index t (1 : Fin 2) * 1 + 1 * 0 = 0; rw [h1]

/-- The stacked matrix's window at a row of band 0 is the first 64 × 64 matrix. -/
theorem iblk3_apply0 (c : Dev nD) (t : Fin cfg0.N) (s r : Fin 64) :
    (iblk m c 3 t : S256x64.Idx → EReal) (ix2 (BodyValue.stk 0 s) r)
      = (m ((c : Thread nD τ).loc main_arg3) : S64x64.Idx → EReal) (ix2 s r) := by
  obtain ⟨-, -, -, ⟨h0, h1⟩, -⟩ := idx_facts t
  unfold iblk
  rw [View.read_apply]
  refine Eq.trans ?_ (HostPrefix.found_stack0 m c (BodyValue.stk 0 s) s r (by show 64 * 0 + s.val = s.val; omega))
  show V m c main_v3 _ = V m c main_v3 _
  congr 1
  funext a
  apply Fin.ext
  match a with
  | ⟨0, _⟩ => show win0_3.index t (0 : Fin 2) * 256 + 1 * (BodyValue.stk 0 s).val = (BodyValue.stk 0 s).val; rw [h0]; omega
  | ⟨1, _⟩ => show win0_3.index t (1 : Fin 2) * 64 + 1 * r.val = r.val; rw [h1]; omega

/-- Band 1 is the second matrix. -/
theorem iblk3_apply1 (c : Dev nD) (t : Fin cfg0.N) (s r : Fin 64) :
    (iblk m c 3 t : S256x64.Idx → EReal) (ix2 (BodyValue.stk 1 s) r)
      = (m ((c : Thread nD τ).loc main_arg4) : S64x64.Idx → EReal) (ix2 s r) := by
  obtain ⟨-, -, -, ⟨h0, h1⟩, -⟩ := idx_facts t
  unfold iblk
  rw [View.read_apply]
  refine Eq.trans ?_ (HostPrefix.found_stack1 m c (BodyValue.stk 1 s) s r (by show 64 * 1 + s.val = 64 + s.val; omega))
  show V m c main_v3 _ = V m c main_v3 _
  congr 1
  funext a
  apply Fin.ext
  match a with
  | ⟨0, _⟩ => show win0_3.index t (0 : Fin 2) * 256 + 1 * (BodyValue.stk 1 s).val = (BodyValue.stk 1 s).val; rw [h0]; omega
  | ⟨1, _⟩ => show win0_3.index t (1 : Fin 2) * 64 + 1 * r.val = r.val; rw [h1]; omega

/-- Band 2 is the third matrix. -/
theorem iblk3_apply2 (c : Dev nD) (t : Fin cfg0.N) (s r : Fin 64) :
    (iblk m c 3 t : S256x64.Idx → EReal) (ix2 (BodyValue.stk 2 s) r)
      = (m ((c : Thread nD τ).loc main_arg5) : S64x64.Idx → EReal) (ix2 s r) := by
  obtain ⟨-, -, -, ⟨h0, h1⟩, -⟩ := idx_facts t
  unfold iblk
  rw [View.read_apply]
  refine Eq.trans ?_ (HostPrefix.found_stack2 m c (BodyValue.stk 2 s) s r (by show 64 * 2 + s.val = 128 + s.val; omega))
  show V m c main_v3 _ = V m c main_v3 _
  congr 1
  funext a
  apply Fin.ext
  match a with
  | ⟨0, _⟩ => show win0_3.index t (0 : Fin 2) * 256 + 1 * (BodyValue.stk 2 s).val = (BodyValue.stk 2 s).val; rw [h0]; omega
  | ⟨1, _⟩ => show win0_3.index t (1 : Fin 2) * 64 + 1 * r.val = r.val; rw [h1]; omega

/-- Band 3 is the fourth matrix. -/
theorem iblk3_apply3 (c : Dev nD) (t : Fin cfg0.N) (s r : Fin 64) :
    (iblk m c 3 t : S256x64.Idx → EReal) (ix2 (BodyValue.stk 3 s) r)
      = (m ((c : Thread nD τ).loc main_arg6) : S64x64.Idx → EReal) (ix2 s r) := by
  obtain ⟨-, -, -, ⟨h0, h1⟩, -⟩ := idx_facts t
  unfold iblk
  rw [View.read_apply]
  refine Eq.trans ?_ (HostPrefix.found_stack3 m c (BodyValue.stk 3 s) s r (by show 64 * 3 + s.val = 192 + s.val; omega))
  show V m c main_v3 _ = V m c main_v3 _
  congr 1
  funext a
  apply Fin.ext
  match a with
  | ⟨0, _⟩ => show win0_3.index t (0 : Fin 2) * 256 + 1 * (BodyValue.stk 3 s).val = (BodyValue.stk 3 s).val; rw [h0]; omega
  | ⟨1, _⟩ => show win0_3.index t (1 : Fin 2) * 64 + 1 * r.val = r.val; rw [h1]; omega

/-- The gate's bias column. -/
theorem iblk4_apply (c : Dev nD) (t : Fin cfg0.N) (s : Fin 64) :
    (iblk m c 4 t : S64x1.Idx → EReal) (ix2 s (0 : Fin 1))
      = (m ((c : Thread nD τ).loc main_arg7) : S64.Idx → EReal) (ix1 s) := by
  obtain ⟨-, -, -, -, ⟨h0, h1⟩, -⟩ := idx_facts t
  unfold iblk
  rw [View.read_apply]
  refine Eq.trans ?_ (HostPrefix.found_bg m c s)
  show V m c main_v1 _ = V m c main_v1 _
  congr 1
  funext a
  apply Fin.ext
  match a with
  | ⟨0, _⟩ => show win0_4.index t (0 : Fin 2) * 64 + 1 * s.val = s.val; rw [h0]; omega
  | ⟨1, _⟩ => show win0_4.index t (1 : Fin 2) * 1 + 1 * 0 = 0; rw [h1]

/-- The last bias column. -/
theorem iblk6_apply (c : Dev nD) (t : Fin cfg0.N) (l : Fin 2048) :
    (iblk m c 6 t : S2048x1.Idx → EReal) (ix2 l (0 : Fin 1))
      = (m ((c : Thread nD τ).loc main_arg9) : S2048.Idx → EReal) (ix1 l) := by
  obtain ⟨-, -, -, -, -, -, ⟨h0, h1⟩, -⟩ := idx_facts t
  unfold iblk
  rw [View.read_apply]
  refine Eq.trans ?_ (HostPrefix.found_bu m c l)
  show V m c main_v2 _ = V m c main_v2 _
  congr 1
  funext a
  apply Fin.ext
  match a with
  | ⟨0, _⟩ => show win0_6.index t (0 : Fin 2) * 2048 + 1 * l.val = l.val; rw [h0]; omega
  | ⟨1, _⟩ => show win0_6.index t (1 : Fin 2) * 1 + 1 * 0 = 0; rw [h1]

/-- The scale row. -/
theorem iblk7_apply (c : Dev nD) (t : Fin cfg0.N) (k : Fin 512) :
    (iblk m c 7 t : S1x512.Idx → EReal) (ix2 (0 : Fin 1) k)
      = (m ((c : Thread nD τ).loc main_arg10) : S512.Idx → EReal) (ix1 k) := by
  obtain ⟨-, -, -, -, -, -, -, ⟨h0, h1⟩, -⟩ := idx_facts t
  unfold iblk
  rw [View.read_apply]
  refine Eq.trans ?_ (HostPrefix.found_gamma m c k)
  show V m c main_v4 _ = V m c main_v4 _
  congr 1
  funext a
  apply Fin.ext
  match a with
  | ⟨0, _⟩ => show win0_7.index t (0 : Fin 2) * 1 + 1 * 0 = 0; rw [h0]
  | ⟨1, _⟩ => show win0_7.index t (1 : Fin 2) * 512 + 1 * k.val = k.val; rw [h1]; omega

/-- The shift row. -/
theorem iblk8_apply (c : Dev nD) (t : Fin cfg0.N) (k : Fin 512) :
    (iblk m c 8 t : S1x512.Idx → EReal) (ix2 (0 : Fin 1) k)
      = (m ((c : Thread nD τ).loc main_arg11) : S512.Idx → EReal) (ix1 k) := by
  obtain ⟨-, -, -, -, -, -, -, -, ⟨h0, h1⟩, -⟩ := idx_facts t
  unfold iblk
  rw [View.read_apply]
  refine Eq.trans ?_ (HostPrefix.found_beta m c k)
  show V m c main_v5 _ = V m c main_v5 _
  congr 1
  funext a
  apply Fin.ext
  match a with
  | ⟨0, _⟩ => show win0_8.index t (0 : Fin 2) * 1 + 1 * 0 = 0; rw [h0]
  | ⟨1, _⟩ => show win0_8.index t (1 : Fin 2) * 512 + 1 * k.val = k.val; rw [h1]; omega

/-- The residual's weight. -/
theorem iblk9_apply (c : Dev nD) (t : Fin cfg0.N) :
    (iblk m c 9 t : S1x1.Idx → EReal) (ix2 (0 : Fin 1) (0 : Fin 1))
      = (m ((c : Thread nD τ).loc main_arg12) : S_.Idx → EReal) ix0 := by
  obtain ⟨-, -, -, -, -, -, -, -, -, ⟨h0, h1⟩, -⟩ := idx_facts t
  unfold iblk
  rw [View.read_apply]
  refine Eq.trans ?_ (HostPrefix.found_alpha m c)
  show V m c main_v6 _ = V m c main_v6 _
  congr 1
  funext a
  apply Fin.ext
  match a with
  | ⟨0, _⟩ => show win0_9.index t (0 : Fin 2) * 1 + 1 * 0 = 0; rw [h0]
  | ⟨1, _⟩ => show win0_9.index t (1 : Fin 2) * 1 + 1 * 0 = 0; rw [h1]

/-- An index of the result array lies in point `t`'s block iff its batch coordinate is `t`. -/
theorem mem_blk10 (t : Fin cfg0.N) (i : S64x2048x512.Idx) :
    i ∈ ((cfg0.win 10).blk t).view.set ↔ (i 0).val = t.val := by
  obtain ⟨-, -, -, -, -, -, -, -, -, -, ⟨h0, h1, h2⟩⟩ := idx_facts t
  show i ∈ ((View.whole main_v7).slice (win0_10.rect t)).set ↔ _
  rw [View.set_slice_whole, Rect.mem_set_unit]
  have b1 : (i 1).val < 2048 := (i 1).isLt
  have b2 : (i 2).val < 512 := (i 2).isLt
  constructor
  · intro h
    have := h (0 : Fin 3)
    have e : win0_10.index t (0 : Fin 3) * 1 ≤ (i 0).val ∧ (i 0).val < win0_10.index t (0 : Fin 3) * 1 + 1 := this
    rw [h0] at e; omega
  · intro h a
    match a with
    | ⟨0, _⟩ => show win0_10.index t (0 : Fin 3) * 1 ≤ (i 0).val ∧ (i 0).val < win0_10.index t (0 : Fin 3) * 1 + 1; rw [h0]; omega
    | ⟨1, _⟩ => show win0_10.index t (1 : Fin 3) * 2048 ≤ (i 1).val ∧ (i 1).val < win0_10.index t (1 : Fin 3) * 2048 + 2048; rw [h1]; omega
    | ⟨2, _⟩ => show win0_10.index t (2 : Fin 3) * 512 ≤ (i 2).val ∧ (i 2).val < win0_10.index t (2 : Fin 3) * 512 + 512; rw [h2]; omega

/-- Every index of the result array is in the block of the point numbered by its batch coordinate. -/
theorem cover10 (i : S64x2048x512.Idx) :
    ∃ t : Fin cfg0.N, (cfg0.win 10).flush t = true ∧ i ∈ ((cfg0.win 10).blk t).view.set :=
  ⟨⟨(i 0).val, Nat.lt_of_lt_of_eq (i 0).isLt N_0.symm⟩, flush0_10 _, (mem_blk10 _ i).2 rfl⟩

/-- The result array as one function of the argument arrays: at `(b, l, k)` the specification's value for the slab of
    batch `b`. -/
def G (c : Dev nD) : S64x2048x512.Idx → EReal := fun i =>
  Cert.Spec.outK
    (fun l k => (m ((c : Thread nD τ).loc main_arg0) : S64x2048x512.Idx → EReal) (ix3 (i 0) l k))
    (fun r l => (m ((c : Thread nD τ).loc main_arg1) : S64x2048.Idx → EReal) (ix2 r l))
    (fun r => (m ((c : Thread nD τ).loc main_arg2) : S64.Idx → EReal) (ix1 r))
    (fun s r => (m ((c : Thread nD τ).loc main_arg3) : S64x64.Idx → EReal) (ix2 s r))
    (fun s r => (m ((c : Thread nD τ).loc main_arg4) : S64x64.Idx → EReal) (ix2 s r))
    (fun s r => (m ((c : Thread nD τ).loc main_arg5) : S64x64.Idx → EReal) (ix2 s r))
    (fun s r => (m ((c : Thread nD τ).loc main_arg6) : S64x64.Idx → EReal) (ix2 s r))
    (fun s => (m ((c : Thread nD τ).loc main_arg7) : S64.Idx → EReal) (ix1 s))
    (fun l s => (m ((c : Thread nD τ).loc main_arg8) : S2048x64.Idx → EReal) (ix2 l s))
    (fun l => (m ((c : Thread nD τ).loc main_arg9) : S2048.Idx → EReal) (ix1 l))
    (fun k => (m ((c : Thread nD τ).loc main_arg10) : S512.Idx → EReal) (ix1 k))
    (fun k => (m ((c : Thread nD τ).loc main_arg11) : S512.Idx → EReal) (ix1 k))
    ((m ((c : Thread nD τ).loc main_arg12) : S_.Idx → EReal) ix0)
    (i 1) (i 2)

/-- After the run the result array is what the blocks written back make of it, and every argument is as launched. -/
theorem post_all (r : PUnit × MemSt nD τ sig (Elt Ideal)) (h : Pipeline.FramePost cfgs (dats m) 0 (V m) r) (c : Dev nD) :
    r.2.mem ((c.tc : Thread nD τ).loc main_v7) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  obtain ⟨hwin, hrest⟩ := h c
  have staged : ∀ (w : Fin cfg0.W) (hw : (cfg0.win w).isOut = false),
      (dats m 0 c).arrAt w (cfgs 0).N = V m c (Pipeline.arrRef spec0 w) := fun w hw =>
    ((dats m 0 c).arrAt_in w hw _).trans (A_eq m c w)
  have unstaged : ∀ (b : Ref sig .tc) (hs : b.isScoped = false) (hb : ∀ w, (spec0 w).arr.view.ref ≠ b),
      r.2.mem ((c.tc : Thread nD τ).loc b) = V m c b :=
    fun b hs hb => hrest b (Pipeline.mem_restRefs_of b hs hb)
  exact ⟨hwin 10,
    ((hwin 0).trans (staged 0 rfl)).trans (V_main_arg0 m c),
    ((hwin 1).trans (staged 1 rfl)).trans (V_main_arg1 m c),
    (unstaged main_arg2 (by decide) (by decide)).trans (V_main_arg2 m c),
    (unstaged main_arg3 (by decide) (by decide)).trans (V_main_arg3 m c),
    (unstaged main_arg4 (by decide) (by decide)).trans (V_main_arg4 m c),
    (unstaged main_arg5 (by decide) (by decide)).trans (V_main_arg5 m c),
    (unstaged main_arg6 (by decide) (by decide)).trans (V_main_arg6 m c),
    (unstaged main_arg7 (by decide) (by decide)).trans (V_main_arg7 m c),
    ((hwin 5).trans (staged 5 rfl)).trans (V_main_arg8 m c),
    (unstaged main_arg9 (by decide) (by decide)).trans (V_main_arg9 m c),
    (unstaged main_arg10 (by decide) (by decide)).trans (V_main_arg10 m c),
    (unstaged main_arg11 (by decide) (by decide)).trans (V_main_arg11 m c),
    (unstaged main_arg12 (by decide) (by decide)).trans (V_main_arg12 m c)⟩

/-- What the body stores at point `t`, at an index of the block, is the specification's value at the index's place in
    the array: the body's value in terms of its ten blocks, and each block read off its argument. -/
theorem stored_apply (c : Dev nD) (t : Fin cfg0.N) (j : S1x2048x512.Idx) :
    k0_pay7 (F := Ideal) (k0_pay1 (iblk m c 0 t)) (k0_pay2 (iblk m c 9 t))
        (k0_pay4 (iblk m c 0 t) (iblk m c 1 t) (iblk m c 2 t) (iblk m c 3 t) (iblk m c 4 t))
        (k0_pay5 (iblk m c 0 t) (iblk m c 1 t) (iblk m c 2 t) (iblk m c 3 t))
        (k0_pay6 (iblk m c 0 t) (iblk m c 1 t) (iblk m c 2 t) (iblk m c 3 t))
        (iblk m c 5 t) (iblk m c 6 t) (iblk m c 7 t) (iblk m c 8 t) j
      = G m c (((cfg0.win 10).blk t).view.emb j) := by
  obtain ⟨-, -, -, -, -, -, -, -, -, -, ⟨h0, h1, h2⟩⟩ := idx_facts t
  obtain ⟨z, l, k, rfl⟩ : ∃ (z : Fin 1) (l : Fin 2048) (k : Fin 512), j = ix3 z l k := ⟨j 0, j 1, j 2, eq_ix3 j⟩
  obtain rfl : z = 0 := Subsingleton.elim _ _
  have he : ((cfg0.win 10).blk t).view.emb (ix3 (0 : Fin 1) l k) = ix3 (batch t) l k := by
    funext a
    apply Fin.ext
    match a with
    | ⟨0, _⟩ => show win0_10.index t (0 : Fin 3) * 1 + 1 * 0 = t.val; rw [h0]; omega
    | ⟨1, _⟩ => show win0_10.index t (1 : Fin 3) * 2048 + 1 * l.val = l.val; rw [h1]; omega
    | ⟨2, _⟩ => show win0_10.index t (2 : Fin 3) * 512 + 1 * k.val = k.val; rw [h2]; omega
  rw [he]
  refine (BodyValue.body_apply (iblk m c 0 t) (iblk m c 1 t) (iblk m c 2 t) (iblk m c 3 t) (iblk m c 4 t) (iblk m c 5 t)
    (iblk m c 6 t) (iblk m c 7 t) (iblk m c 8 t) (iblk m c 9 t) l k).trans ?_
  unfold G
  simp only [iblk0_apply, iblk1_apply, iblk2_apply, iblk3_apply0, iblk3_apply1, iblk3_apply2, iblk3_apply3, iblk4_apply,
    iblk5_apply, iblk6_apply, iblk7_apply, iblk8_apply, iblk9_apply]

/-- WHAT POINT `t` WRITES BACK is block `t` of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10, out10_eq]
  funext j
  exact stored_apply m c t j

/-- The 64 blocks tile the result array, so it ends holding `G`. -/
theorem final (c : Dev nD) : (dats m 0 c).arrAt 10 cfg0.N = G m c :=
  (dats m 0 c).arrAt_eq_of_cover 10 (G m c) (fun t _ => flushed_eq m c t) cover10

/-- The kernel's run, read: the result array at `G` of the arguments, the arguments unchanged. -/
theorem run :
    θ_run defs (onTc (τ := τ) (main (F := Ideal))) ⟨m, fun _ => 0, ρ⟩ fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
      obtain ⟨h10, hargs⟩ := post_all m r h c
      exact ⟨h10.trans (final m c), hargs⟩)
    (run_main m ρ)

end Cert.KernelIdeal.KValue

end
-- ==== Proof.RefValue.lean ====
import proofs.«125835_j78022375899457_2_alg».proof.Proof.Gen.ReferenceIdeal.Read
import proofs.«125835_j78022375899457_2_alg».proof.Proof.Spec
import Idealize.ShloMosaic.Lib.ValueIdx
import Idealize.ShloMosaic.PureOps.Ideal.Laws

/-!
# The reference's result at an index is the specification's function

The reference keeps its intermediate arrays in the layout `[batch, column, feature]`; each stage of the
specification is read off the corresponding array at an index, from the input slab of one batch and the weights.
-/

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The slab of batch `b`. -/
abbrev slab (x0 : (⟨S64x2048x512, .f32⟩ : BufTy).Contents (Elt Ideal)) (b : Fin 64) : Fin 2048 → Fin 512 → EReal :=
  fun l c => x0 (ix3 b l c)
/-- A rank-2 array as a matrix. -/
abbrev mat {m n : Nat} (w : (⟨(⟨2, ![m, n]⟩ : Shape), .f32⟩ : BufTy).Contents (Elt Ideal)) : Fin m → Fin n → EReal :=
  fun i j => w (ix2 i j)
/-- A rank-1 array as a vector. -/
abbrev vec {n : Nat} (v : (⟨(⟨1, ![n]⟩ : Shape), .f32⟩ : BufTy).Contents (Elt Ideal)) : Fin n → EReal :=
  fun i => v (ix1 i)

/-- The word of `1.0` is the number one. -/
theorem ofBits_one : Ideal.ofBits .f32 0x3F800000#32 = 1 := by
  simp [Ideal.ofBits, Ideal.ieee, -EReal.coe_mul]; norm_num

/-! ## The low-rank features -/

theorem low_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (b : Fin 64) (c : Fin 512) (r : Fin 64) :
    val_main_v4 (F := Ideal) x0 x1 x2 (ix3 b c r) = Spec.low (slab x0 b) (mat x1) (vec x2) r c := by
  rw [val_main_v4_apply, val_main_v1_apply, val_main_v3_apply, val_main_v2_apply]
  have e0 : ∀ k : Fin 2048, idx_main_v0 (lidx_main_v1 (ix3 b c r) k) = ix3 b k c := fun k => funext fun a => Fin.ext (by
    match a with | ⟨0, _⟩ => rfl | ⟨1, _⟩ => rfl | ⟨2, _⟩ => rfl)
  have e1 : ∀ k : Fin 2048, ridx_main_v1 (ix3 b c r) k = ix2 r k := fun k => funext fun a => Fin.ext (by
    match a with | ⟨0, _⟩ => rfl | ⟨1, _⟩ => rfl)
  have e2 : idx_main_v2 (idx_main_v3 (ix3 b c r)) = ix1 r := funext fun a => Fin.ext (by
    match a with | ⟨0, _⟩ => rfl)
  simp only [val_main_v0_apply, e0, e1, e2, Ideal.addf_def]
  unfold Spec.low
  exact congrArg (· + x2 (ix1 r)) (Finset.sum_congr rfl fun k _ => mul_comm _ _)

/-! ## A projection of the features by a `64 × 64` matrix -/

theorem proj_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal))
    (b : Fin 64) (c : Fin 512) (s : Fin 64) :
    val_main_v5 (F := Ideal) x0 x1 x2 W (ix3 b c s) = Spec.proj (slab x0 b) (mat x1) (vec x2) (mat W) s c := by
  rw [val_main_v5_apply]
  have e0 : ∀ k : Fin 64, lidx_main_v5 (ix3 b c s) k = ix3 b c k := fun k => funext fun a => Fin.ext (by
    match a with | ⟨0, _⟩ => rfl | ⟨1, _⟩ => rfl | ⟨2, _⟩ => rfl)
  have e1 : ∀ k : Fin 64, ridx_main_v5 (ix3 b c s) k = ix2 s k := fun k => funext fun a => Fin.ext (by
    match a with | ⟨0, _⟩ => rfl | ⟨1, _⟩ => rfl)
  simp only [e0, e1, low_apply]
  unfold Spec.proj
  exact Finset.sum_congr rfl fun k _ => mul_comm _ _

/-! ## The clamped norm of a projected column, and the column divided by it -/

theorem nrm_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal))
    (b : Fin 64) (c : Fin 512) (z : Fin 1) :
    val_main_v11 (F := Ideal) x0 x1 x2 W (ix3 b c z) = Spec.nrm (slab x0 b) (mat x1) (vec x2) (mat W) c := by
  rw [val_main_v11_apply, val_main_v9_apply, val_main_v8_apply, val_main_v7_apply, val_main_v10_apply,
    val_main_cst_0_apply, val_main_cst_apply]
  have e : ∀ k : Fin 64, idx_main_v7 (idx_main_v8 (ix3 b c z)) k = ix3 b c k := fun k => funext fun a => Fin.ext (by
    match a with | ⟨0, _⟩ => rfl | ⟨1, _⟩ => rfl | ⟨2, _⟩ => rfl)
  simp only [val_main_v6_apply, e, proj_apply, Ideal.ofBits_def, Ideal.ofBits_zero_f32, zero_add, Ideal.mulf_def,
    Ideal.maximumf_def, Ideal.hostUnary_sqrt_def]
  rfl

theorem unit_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal))
    (b : Fin 64) (c : Fin 512) (s : Fin 64) :
    val_main_v13 (F := Ideal) x0 x1 x2 W (ix3 b c s) = Spec.unit (slab x0 b) (mat x1) (vec x2) (mat W) s c := by
  rw [val_main_v13_apply, val_main_v12_apply, proj_apply]
  have e : idx_main_v12 (ix3 b c s) = ix3 b c (⟨0, Nat.one_pos⟩ : Fin 1) := funext fun a => Fin.ext (by
    match a with | ⟨0, _⟩ => rfl | ⟨1, _⟩ => rfl | ⟨2, _⟩ => rfl)
  rw [e, nrm_apply, Ideal.hostDivf_def]
  rfl

/-! The reference applies the same operations with the second, third and fourth matrix. -/

theorem v14_eq (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal)) :
    val_main_v14 (F := Ideal) x0 x1 x2 W = val_main_v5 (F := Ideal) x0 x1 x2 W := rfl
theorem v22_eq (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal)) :
    val_main_v22 (F := Ideal) x0 x1 x2 W = val_main_v13 (F := Ideal) x0 x1 x2 W := rfl
theorem v23_eq (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal)) :
    val_main_v23 (F := Ideal) x0 x1 x2 W = val_main_v5 (F := Ideal) x0 x1 x2 W := rfl
theorem v29_eq (x0 : (⟨S64x2048x512, .f32⟩ : BufTy).Contents (Elt Ideal)) (x1 : (⟨S64x2048, .f32⟩ : BufTy).Contents (Elt Ideal))
    (x2 : (⟨S64, .f32⟩ : BufTy).Contents (Elt Ideal)) (W : (⟨S64x64, .f32⟩ : BufTy).Contents (Elt Ideal)) :
    val_main_v29 (F := Ideal) x0 x1 x2 W = val_main_v5 (F := Ideal) x0 x1 x2 W := rfl

/-! ## The pooled feature, the gate, and their product with the unit query -/

theorem pooled_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x4 x5 : (⟨S64x64, .f32⟩ : BufTy).Contents (Elt Ideal))
    (b : Fin 64) (s : Fin 64) :
    val_main_v25 (F := Ideal) x0 x1 x2 x4 x5 (ix2 b s)
      = Spec.pooled (slab x0 b) (mat x1) (vec x2) (mat x4) (mat x5) s := by
  rw [val_main_v25_apply, val_main_cst_3_apply]
  have e : ∀ k : Fin 512, idx_main_v25 (ix2 b s) k = ix3 b k s := fun k => funext fun a => Fin.ext (by
    match a with | ⟨0, _⟩ => rfl | ⟨1, _⟩ => rfl | ⟨2, _⟩ => rfl)
  simp only [val_main_v24_apply, e, v22_eq, v23_eq, unit_apply, proj_apply, Ideal.ofBits_def, Ideal.ofBits_zero_f32,
    zero_add, Ideal.mulf_def]
  rfl

theorem gate_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x6 : (⟨S64x64, .f32⟩ : BufTy).Contents (Elt Ideal))
    (x7 : (⟨S64, .f32⟩ : BufTy).Contents (Elt Ideal)) (b : Fin 64) (c : Fin 512) (s : Fin 64) :
    val_main_v38 (F := Ideal) x0 x1 x2 x6 x7 (ix3 b c s)
      = Spec.gate (slab x0 b) (mat x1) (vec x2) (mat x6) (vec x7) s c := by
  rw [val_main_v38_apply, val_main_v37_apply, val_main_cst_5_apply, val_main_v36_apply, val_main_v35_apply,
    val_main_cst_4_apply, val_main_v34_apply, val_main_v33_apply, val_main_v32_apply, val_main_v31_apply,
    val_main_v30_apply, v29_eq, proj_apply]
  have e : idx_main_v30 (idx_main_v31 (ix3 b c s)) = ix1 s := funext fun a => Fin.ext (by
    match a with | ⟨0, _⟩ => rfl)
  simp only [e, Ideal.ofBits_def, ofBits_one, Ideal.hostDivf_def, Ideal.addf_def, Ideal.hostUnary_exp_def,
    Ideal.hostNegf_def, Ideal.negf_def]
  rfl

theorem attn_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (b : Fin 64) (c : Fin 512) (s : Fin 64) :
    val_main_v39 (F := Ideal) x0 x1 x2 x3 x4 x5 x6 x7 (ix3 b c s)
      = Spec.attn (slab x0 b) (mat x1) (vec x2) (mat x3) (mat x4) (mat x5) (mat x6) (vec x7) s c := by
  rw [val_main_v39_apply, val_main_v28_apply, val_main_v27_apply, val_main_v26_apply, unit_apply, gate_apply]
  have e : idx_main_v26 (idx_main_v27 (ix3 b c s)) = ix2 b s := funext fun a => Fin.ext (by
    match a with | ⟨0, _⟩ => rfl | ⟨1, _⟩ => rfl)
  rw [e, pooled_apply]
  rfl

/-! ## The mixing by the `2048 × 64` matrix, and the residual in the input's own layout -/

theorem mixed_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (b : Fin 64) (c : Fin 512) (l : Fin 2048) :
    val_main_v43 (F := Ideal) x0 x1 x2 x3 x4 x5 x6 x7 x8 x9 (ix3 b c l)
      = Spec.mixed (slab x0 b) (mat x1) (vec x2) (mat x3) (mat x4) (mat x5) (mat x6) (vec x7) (mat x8) (vec x9) l c := by
  rw [val_main_v43_apply, val_main_v40_apply, val_main_v42_apply, val_main_v41_apply]
  have e0 : ∀ k : Fin 64, lidx_main_v40 (ix3 b c l) k = ix3 b c k := fun k => funext fun a => Fin.ext (by
    match a with | ⟨0, _⟩ => rfl | ⟨1, _⟩ => rfl | ⟨2, _⟩ => rfl)
  have e1 : ∀ k : Fin 64, ridx_main_v40 (ix3 b c l) k = ix2 l k := fun k => funext fun a => Fin.ext (by
    match a with | ⟨0, _⟩ => rfl | ⟨1, _⟩ => rfl)
  have e2 : idx_main_v41 (idx_main_v42 (ix3 b c l)) = ix1 l := funext fun a => Fin.ext (by
    match a with | ⟨0, _⟩ => rfl)
  simp only [e0, e1, e2, attn_apply, Ideal.addf_def]
  unfold Spec.mixed
  exact congrArg (· + x9 (ix1 l)) (Finset.sum_congr rfl fun k _ => mul_comm _ _)

theorem res_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x12 : (⟨S_, .f32⟩ : BufTy).Contents (Elt Ideal))
    (b : Fin 64) (l : Fin 2048) (c : Fin 512) :
    val_main_v47 (F := Ideal) x0 x1 x2 x3 x4 x5 x6 x7 x8 x9 x12 (ix3 b l c)
      = Spec.res (slab x0 b) (mat x1) (vec x2) (mat x3) (mat x4) (mat x5) (mat x6) (vec x7) (mat x8) (vec x9) (x12 ix0) l c := by
  rw [val_main_v47_apply]
  have e : idx_main_v47 (ix3 b l c) = ix3 b c l := funext fun a => Fin.ext (by
    match a with | ⟨0, _⟩ => rfl | ⟨1, _⟩ => rfl | ⟨2, _⟩ => rfl)
  rw [e, val_main_v46_apply, val_main_v0_apply, val_main_v45_apply, val_main_v44_apply, mixed_apply]
  have e0 : idx_main_v0 (ix3 b c l) = ix3 b l c := funext fun a => Fin.ext (by
    match a with | ⟨0, _⟩ => rfl | ⟨1, _⟩ => rfl | ⟨2, _⟩ => rfl)
  rw [e0, Ideal.addf_def, Ideal.mulf_def]
  rfl

/-! ## The normalisation of a row: its mean, the centred entries, the variance plus its offset -/

theorem mean_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x12 : (⟨S_, .f32⟩ : BufTy).Contents (Elt Ideal))
    (b : Fin 64) (l : Fin 2048) (z : Fin 1) :
    val_main_v51 (F := Ideal) x0 x1 x2 x3 x4 x5 x6 x7 x8 x9 x12 (ix3 b l z)
      = Ideal.div (∑ k : Fin 512, Spec.res (slab x0 b) (mat x1) (vec x2) (mat x3) (mat x4) (mat x5) (mat x6) (vec x7) (mat x8) (vec x9) (x12 ix0) l k) Spec.lenC := by
  rw [val_main_v51_apply, val_main_v49_apply, val_main_v50_apply, val_main_cst_7_apply, val_main_v48_apply,
    val_main_cst_6_apply]
  have e : ∀ k : Fin 512, idx_main_v48 (idx_main_v49 (ix3 b l z)) k = ix3 b l k := fun k => funext fun a => Fin.ext (by
    match a with | ⟨0, _⟩ => rfl | ⟨1, _⟩ => rfl | ⟨2, _⟩ => rfl)
  simp only [e, res_apply, Ideal.ofBits_def, Ideal.ofBits_zero_f32, zero_add, Ideal.hostDivf_def]

theorem cen_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x12 : (⟨S_, .f32⟩ : BufTy).Contents (Elt Ideal))
    (b : Fin 64) (l : Fin 2048) (c : Fin 512) :
    val_main_v53 (F := Ideal) x0 x1 x2 x3 x4 x5 x6 x7 x8 x9 x12 (ix3 b l c)
      = Spec.res (slab x0 b) (mat x1) (vec x2) (mat x3) (mat x4) (mat x5) (mat x6) (vec x7) (mat x8) (vec x9) (x12 ix0) l c
        - Ideal.div (∑ k : Fin 512, Spec.res (slab x0 b) (mat x1) (vec x2) (mat x3) (mat x4) (mat x5) (mat x6) (vec x7) (mat x8) (vec x9) (x12 ix0) l k) Spec.lenC := by
  rw [val_main_v53_apply, val_main_v52_apply, res_apply]
  have e : idx_main_v52 (ix3 b l c) = ix3 b l (⟨0, Nat.one_pos⟩ : Fin 1) := funext fun a => Fin.ext (by
    match a with | ⟨0, _⟩ => rfl | ⟨1, _⟩ => rfl | ⟨2, _⟩ => rfl)
  rw [e, mean_apply, Ideal.subf_def]

/-- The reference centres the row a second time, by the same operations. -/
theorem v60_eq (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x12 : (⟨S_, .f32⟩ : BufTy).Contents (Elt Ideal)) :
    val_main_v60 (F := Ideal) x0 x1 x2 x3 x4 x5 x6 x7 x8 x9 x12 = val_main_v53 (F := Ideal) x0 x1 x2 x3 x4 x5 x6 x7 x8 x9 x12 := rfl

theorem var_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x12 : (⟨S_, .f32⟩ : BufTy).Contents (Elt Ideal))
    (b : Fin 64) (l : Fin 2048) (z : Fin 1) :
    val_main_v62 (F := Ideal) x0 x1 x2 x3 x4 x5 x6 x7 x8 x9 x12 (ix3 b l z)
      = Ideal.div (∑ k : Fin 512,
            (Spec.res (slab x0 b) (mat x1) (vec x2) (mat x3) (mat x4) (mat x5) (mat x6) (vec x7) (mat x8) (vec x9) (x12 ix0) l k
              - Ideal.div (∑ k : Fin 512, Spec.res (slab x0 b) (mat x1) (vec x2) (mat x3) (mat x4) (mat x5) (mat x6) (vec x7) (mat x8) (vec x9) (x12 ix0) l k) Spec.lenC)
            * (Spec.res (slab x0 b) (mat x1) (vec x2) (mat x3) (mat x4) (mat x5) (mat x6) (vec x7) (mat x8) (vec x9) (x12 ix0) l k
              - Ideal.div (∑ k : Fin 512, Spec.res (slab x0 b) (mat x1) (vec x2) (mat x3) (mat x4) (mat x5) (mat x6) (vec x7) (mat x8) (vec x9) (x12 ix0) l k) Spec.lenC)) Spec.lenC
          + Spec.epsL := by
  rw [val_main_v62_apply, val_main_v58_apply, val_main_v56_apply, val_main_v57_apply, val_main_cst_9_apply,
    val_main_v61_apply, val_main_cst_10_apply, val_main_v55_apply, val_main_cst_8_apply]
  have e : ∀ k : Fin 512, idx_main_v55 (idx_main_v56 (ix3 b l z)) k = ix3 b l k := fun k => funext fun a => Fin.ext (by
    match a with | ⟨0, _⟩ => rfl | ⟨1, _⟩ => rfl | ⟨2, _⟩ => rfl)
  simp only [val_main_v54_apply, e, cen_apply, Ideal.ofBits_def, Ideal.ofBits_zero_f32, zero_add, Ideal.hostDivf_def,
    Ideal.addf_def, Ideal.mulf_def]

/-! ## The result -/

/-- The reference's result at batch `b`, row `l`, column `c` is the specification's `outR` of the slab of batch `b`. -/
theorem out_apply (x0 : (⟨S64x2048x512, .f32⟩ : BufTy).Contents (Elt Ideal)) (x1 : (⟨S64x2048, .f32⟩ : BufTy).Contents (Elt Ideal))
    (x2 : (⟨S64, .f32⟩ : BufTy).Contents (Elt Ideal)) (x3 x4 x5 x6 : (⟨S64x64, .f32⟩ : BufTy).Contents (Elt Ideal))
    (x7 : (⟨S64, .f32⟩ : BufTy).Contents (Elt Ideal)) (x8 : (⟨S2048x64, .f32⟩ : BufTy).Contents (Elt Ideal))
    (x9 : (⟨S2048, .f32⟩ : BufTy).Contents (Elt Ideal)) (x10 x11 : (⟨S512, .f32⟩ : BufTy).Contents (Elt Ideal))
    (x12 : (⟨S_, .f32⟩ : BufTy).Contents (Elt Ideal)) (b : Fin 64) (l : Fin 2048) (c : Fin 512) :
    val_main_v71 (F := Ideal) x0 x1 x2 x3 x4 x5 x6 x7 x8 x9 x10 x11 x12 (ix3 b l c)
      = Spec.outR (slab x0 b) (mat x1) (vec x2) (mat x3) (mat x4) (mat x5) (mat x6) (vec x7) (mat x8) (vec x9)
          (vec x10) (vec x11) (x12 ix0) l c := by
  rw [val_main_v71_apply, val_main_v68_apply, val_main_v65_apply, v60_eq, cen_apply, val_main_v64_apply,
    val_main_v63_apply, val_main_v67_apply, val_main_v66_apply, val_main_v70_apply, val_main_v69_apply]
  have e1 : idx_main_v64 (ix3 b l c) = ix3 b l (⟨0, Nat.one_pos⟩ : Fin 1) := funext fun a => Fin.ext (by
    match a with | ⟨0, _⟩ => rfl | ⟨1, _⟩ => rfl | ⟨2, _⟩ => rfl)
  have e2 : idx_main_v66 (idx_main_v67 (ix3 b l c)) = ix1 c := funext fun a => Fin.ext (by
    match a with | ⟨0, _⟩ => rfl)
  have e3 : idx_main_v69 (idx_main_v70 (ix3 b l c)) = ix1 c := funext fun a => Fin.ext (by
    match a with | ⟨0, _⟩ => rfl)
  rw [e1, var_apply, e2, e3, Ideal.addf_def, Ideal.mulf_def, Ideal.hostDivf_def, Ideal.hostUnary_sqrt_def]
  rfl

/-- The same, with the arrays spelled as functions of their indices. -/
theorem ref_apply (x0 : S64x2048x512.Idx → EReal) (x1 : S64x2048.Idx → EReal) (x2 : S64.Idx → EReal)
    (x3 x4 x5 x6 : S64x64.Idx → EReal) (x7 : S64.Idx → EReal) (x8 : S2048x64.Idx → EReal) (x9 : S2048.Idx → EReal)
    (x10 x11 : S512.Idx → EReal) (x12 : S_.Idx → EReal) (b : Fin 64) (l : Fin 2048) (c : Fin 512) :
    Cert.ReferenceIdeal.Read.val_main_v71 (F := Ideal) x0 x1 x2 x3 x4 x5 x6 x7 x8 x9 x10 x11 x12 (ValueIdx.ix3 b l c)
      = Cert.Spec.outR (fun l c => x0 (ValueIdx.ix3 b l c)) (fun r l => x1 (ValueIdx.ix2 r l)) (fun r => x2 (ValueIdx.ix1 r))
          (fun s r => x3 (ValueIdx.ix2 s r)) (fun s r => x4 (ValueIdx.ix2 s r)) (fun s r => x5 (ValueIdx.ix2 s r))
          (fun s r => x6 (ValueIdx.ix2 s r)) (fun s => x7 (ValueIdx.ix1 s)) (fun l s => x8 (ValueIdx.ix2 l s))
          (fun l => x9 (ValueIdx.ix1 l)) (fun c => x10 (ValueIdx.ix1 c)) (fun c => x11 (ValueIdx.ix1 c))
          (x12 ValueIdx.ix0) l c :=
  out_apply x0 x1 x2 x3 x4 x5 x6 x7 x8 x9 x10 x11 x12 b l c

end Cert.ReferenceIdeal.RefValue

end
-- ==== Proof.Consts.lean ====
import proofs.«125835_j78022375899457_2_alg».proof.Proof.Spec

/-!
# The four float literals as real numbers

`512` and `2⁻⁹` are exact; the two small offsets are positive dyadic rationals (the nearest binary32 numbers to
`10⁻¹²` and `10⁻⁵`), of which only positivity is used.
-/

noncomputable section

namespace Cert.Spec

open Idealize.ShloMosaic

/-- The reference's row length is the real `512`. -/
theorem lenC_eq : lenC = ((512 : ℝ) : EReal) := by
  simp [Ideal.ofBits, Ideal.ieee, -EReal.coe_mul]; norm_num

/-- The kernel's reciprocal row length is the real `1/512`. -/
theorem invC_eq : invC = ((1 / 512 : ℝ) : EReal) := by
  simp [Ideal.ofBits, Ideal.ieee, -EReal.coe_mul]; norm_num

/-- The variance's offset is a positive real. -/
theorem epsL_pos : ∃ e : ℝ, 0 < e ∧ epsL = (e : EReal) := by
  refine ⟨10995116 * (2 : ℝ) ^ (-40 : ℤ), by positivity, ?_⟩
  simp [Ideal.ofBits, Ideal.ieee, -EReal.coe_mul]

/-- The norms' clamp is a positive real. -/
theorem epsN_pos : ∃ e : ℝ, 0 < e ∧ epsN = (e : EReal) := by
  refine ⟨9223372 * (2 : ℝ) ^ (-63 : ℤ), by positivity, ?_⟩
  simp [Ideal.ofBits, Ideal.ieee, -EReal.coe_mul]

end Cert.Spec

end
-- ==== Proof.SpecLaws.lean ====
import proofs.«125835_j78022375899457_2_alg».proof.Proof.Consts

/-!
# Why the two normalisations agree

An extended real is *real* when it is neither infinity. Sums, products and differences of reals are real; the
clamped norm `max (√a) ε₁` of a real `a` is a positive real (if `a < 0` the root is `-∞` and the clamp takes over), so
a quotient by it is real; the logistic function of a real is real. Hence every stage up to `res` is real when the
inputs are (`res_real`).

For a row `o` of reals with sum `S` and sum of squares `Q`, put `μ = S/512`. Then
`∑ (o k − μ)² = Q − 2 μ S + 512 μ²`, so `(∑ (o k − μ)²)/512 = Q/512 − μ²`: the two variances are one real number
`v ≥ 0`, `v + ε₂ > 0`, and multiplying by `(√(v + ε₂))⁻¹` is dividing by `√(v + ε₂)` (`lnK_eq_lnR`).
-/

noncomputable section

namespace Cert.Spec

open Idealize.ShloMosaic
open scoped BigOperators

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type} (s : Finset ι) (f : ι → EReal) (h : ∀ i ∈ s, IsReal (f i)) : IsReal (∑ i ∈ s, f i) :=
  Finset.sum_induction f IsReal (fun _ _ => IsReal.add) ⟨0, EReal.coe_zero.symm⟩ h

/-- The coercion of the reals commutes with finite sums. -/
theorem coe_sum {ι : Type} (s : Finset ι) (f : ι → ℝ) : (∑ i ∈ s, (f i : EReal)) = ((∑ i ∈ s, f i : ℝ) : EReal) := by
  classical
  induction s using Finset.induction_on with
  | empty => simp
  | @insert a s ha ih => rw [Finset.sum_insert ha, Finset.sum_insert ha, ih, EReal.coe_add]

/-- The clamped root of a real is a positive real. -/
theorem clamp_sqrt_pos {a : EReal} (ha : IsReal a) : ∃ r : ℝ, 0 < r ∧ max (Ideal.sqrt a) epsN = (r : EReal) := by
  obtain ⟨y, rfl⟩ := ha
  obtain ⟨e, he, hE⟩ := epsN_pos
  rw [hE, Ideal.sqrt_coe]
  split_ifs with h
  · exact ⟨e, he, max_eq_right bot_le⟩
  · exact ⟨max (Real.sqrt y) e, lt_max_of_lt_right he, (EReal.coe_strictMono.monotone.map_max).symm⟩

/-- A real divided by a positive real is real. -/
theorem IsReal.div_pos {a : EReal} (ha : IsReal a) {r : ℝ} (hr : 0 < r) : IsReal (Ideal.div a (r : EReal)) := by
  obtain ⟨y, rfl⟩ := ha
  rw [Ideal.div_coe hr.ne']
  exact ⟨y * (1 / r), (EReal.coe_mul _ _).symm⟩

theorem IsReal.logistic {a : EReal} (ha : IsReal a) : IsReal (Ideal.logistic a) := by
  obtain ⟨y, rfl⟩ := ha; exact ⟨_, Ideal.logistic_coe y⟩

section Chain

variable {x : Fin 2048 → Fin 512 → EReal} {Wd : Fin 64 → Fin 2048 → EReal} {bd : Fin 64 → EReal}
  {Wq Wk Wv Wg : Fin 64 → Fin 64 → EReal} {bg : Fin 64 → EReal}
  {Wu : Fin 2048 → Fin 64 → EReal} {bu : Fin 2048 → EReal} {α : EReal}

theorem low_real (hx : ∀ l c, IsReal (x l c)) (hWd : ∀ r l, IsReal (Wd r l)) (hbd : ∀ r, IsReal (bd r))
    (r : Fin 64) (c : Fin 512) : IsReal (low x Wd bd r c) :=
  (IsReal.sum _ _ fun l _ => (hWd r l).mul (hx l c)).add (hbd r)

theorem proj_real (hx : ∀ l c, IsReal (x l c)) (hWd : ∀ r l, IsReal (Wd r l)) (hbd : ∀ r, IsReal (bd r))
    {W : Fin 64 → Fin 64 → EReal} (hW : ∀ s r, IsReal (W s r)) (s : Fin 64) (c : Fin 512) :
    IsReal (proj x Wd bd W s c) :=
  IsReal.sum _ _ fun r _ => (hW s r).mul (low_real hx hWd hbd r c)

theorem nrm_pos (hx : ∀ l c, IsReal (x l c)) (hWd : ∀ r l, IsReal (Wd r l)) (hbd : ∀ r, IsReal (bd r))
    {W : Fin 64 → Fin 64 → EReal} (hW : ∀ s r, IsReal (W s r)) (c : Fin 512) :
    ∃ r : ℝ, 0 < r ∧ nrm x Wd bd W c = (r : EReal) :=
  clamp_sqrt_pos (IsReal.sum _ _ fun s _ => (proj_real hx hWd hbd hW s c).mul (proj_real hx hWd hbd hW s c))

theorem unit_real (hx : ∀ l c, IsReal (x l c)) (hWd : ∀ r l, IsReal (Wd r l)) (hbd : ∀ r, IsReal (bd r))
    {W : Fin 64 → Fin 64 → EReal} (hW : ∀ s r, IsReal (W s r)) (s : Fin 64) (c : Fin 512) :
    IsReal (unit x Wd bd W s c) := by
  obtain ⟨r, hr, h⟩ := nrm_pos hx hWd hbd hW c
  unfold unit; rw [h]; exact (proj_real hx hWd hbd hW s c).div_pos hr

theorem pooled_real (hx : ∀ l c, IsReal (x l c)) (hWd : ∀ r l, IsReal (Wd r l)) (hbd : ∀ r, IsReal (bd r))
    (hWk : ∀ s r, IsReal (Wk s r)) (hWv : ∀ s r, IsReal (Wv s r)) (s : Fin 64) :
    IsReal (pooled x Wd bd Wk Wv s) :=
  IsReal.sum _ _ fun c _ => (unit_real hx hWd hbd hWk s c).mul (proj_real hx hWd hbd hWv s c)

theorem gate_real (hx : ∀ l c, IsReal (x l c)) (hWd : ∀ r l, IsReal (Wd r l)) (hbd : ∀ r, IsReal (bd r))
    (hWg : ∀ s r, IsReal (Wg s r)) (hbg : ∀ s, IsReal (bg s)) (s : Fin 64) (c : Fin 512) :
    IsReal (gate x Wd bd Wg bg s c) :=
  ((proj_real hx hWd hbd hWg s c).add (hbg s)).logistic

theorem attn_real (hx : ∀ l c, IsReal (x l c)) (hWd : ∀ r l, IsReal (Wd r l)) (hbd : ∀ r, IsReal (bd r))
    (hWq : ∀ s r, IsReal (Wq s r)) (hWk : ∀ s r, IsReal (Wk s r)) (hWv : ∀ s r, IsReal (Wv s r))
    (hWg : ∀ s r, IsReal (Wg s r)) (hbg : ∀ s, IsReal (bg s)) (s : Fin 64) (c : Fin 512) :
    IsReal (attn x Wd bd Wq Wk Wv Wg bg s c) :=
  ((unit_real hx hWd hbd hWq s c).mul (pooled_real hx hWd hbd hWk hWv s)).mul (gate_real hx hWd hbd hWg hbg s c)

theorem res_real (hx : ∀ l c, IsReal (x l c)) (hWd : ∀ r l, IsReal (Wd r l)) (hbd : ∀ r, IsReal (bd r))
    (hWq : ∀ s r, IsReal (Wq s r)) (hWk : ∀ s r, IsReal (Wk s r)) (hWv : ∀ s r, IsReal (Wv s r))
    (hWg : ∀ s r, IsReal (Wg s r)) (hbg : ∀ s, IsReal (bg s)) (hWu : ∀ l s, IsReal (Wu l s))
    (hbu : ∀ l, IsReal (bu l)) (hα : IsReal α) (l : Fin 2048) (c : Fin 512) :
    IsReal (res x Wd bd Wq Wk Wv Wg bg Wu bu α l c) :=
  (hx l c).add (hα.mul ((IsReal.sum _ _ fun s _ =>
    (hWu l s).mul (attn_real hx hWd hbd hWq hWk hWv hWg hbg s c)).add (hbu l)))

end Chain

/-- The mean of the squared deviations is the mean of the squares less the squared mean. -/
theorem var_identity (f : Fin 512 → ℝ) :
    (∑ k : Fin 512, (f k - (∑ k : Fin 512, f k) * (1 / 512)) * (f k - (∑ k : Fin 512, f k) * (1 / 512))) * (1 / 512)
      = (∑ k : Fin 512, f k * f k) * (1 / 512) - (∑ k : Fin 512, f k) * (1 / 512) * ((∑ k : Fin 512, f k) * (1 / 512)) := by
  generalize hμ : (∑ k : Fin 512, f k) * (1 / 512) = μ
  have h1 : ∀ k, (f k - μ) * (f k - μ) = f k * f k - 2 * μ * f k + μ * μ := fun k => by ring
  simp only [h1, Finset.sum_add_distrib, Finset.sum_sub_distrib, ← Finset.mul_sum, Finset.sum_const, Finset.card_univ,
    Fintype.card_fin, nsmul_eq_mul]
  rw [← hμ]; push_cast; ring

/-- On a row of reals the two normalisations are one function. -/
theorem lnK_eq_lnR {o : Fin 512 → EReal} (ho : ∀ k, IsReal (o k)) (γ β : Fin 512 → EReal) (c : Fin 512) :
    lnK o γ β c = lnR o γ β c := by
  choose f hf using ho
  obtain rfl : o = fun k => (f k : EReal) := funext hf
  obtain ⟨e, he, hE⟩ := epsL_pos
  obtain ⟨S, hSdef⟩ : ∃ S : ℝ, S = ∑ k : Fin 512, f k := ⟨_, rfl⟩
  obtain ⟨Q, hQdef⟩ : ∃ Q : ℝ, Q = ∑ k : Fin 512, f k * f k := ⟨_, rfl⟩
  obtain ⟨μ, hμdef⟩ : ∃ μ : ℝ, μ = S * (1 / 512) := ⟨_, rfl⟩
  obtain ⟨D, hDdef⟩ : ∃ D : ℝ, D = ∑ k : Fin 512, (f k - μ) * (f k - μ) := ⟨_, rfl⟩
  have key : D * (1 / 512) = Q * (1 / 512) - μ * μ := by
    rw [hDdef, hQdef, hμdef, hSdef]; exact var_identity f
  have hD0 : 0 ≤ D := by rw [hDdef]; exact Finset.sum_nonneg fun k _ => mul_self_nonneg _
  have hv : 0 < Q * (1 / 512) - μ * μ + e := by rw [← key]; positivity
  have hS : (∑ k : Fin 512, (f k : EReal)) = (S : EReal) := by rw [hSdef]; exact coe_sum _ _
  have hQ : (∑ k : Fin 512, (f k : EReal) * (f k : EReal)) = (Q : EReal) := by
    rw [hQdef]; simp only [← EReal.coe_mul]; exact coe_sum _ _
  have hμE : (S : EReal) * ((1 / 512 : ℝ) : EReal) = (μ : EReal) := by rw [hμdef, EReal.coe_mul]
  have hD : (∑ k : Fin 512, ((f k : EReal) - (μ : EReal)) * ((f k : EReal) - (μ : EReal))) = (D : EReal) := by
    rw [hDdef]; simp only [← EReal.coe_sub, ← EReal.coe_mul]; exact coe_sum _ _
  have hL : (Q : EReal) * ((1 / 512 : ℝ) : EReal) - (μ : EReal) * (μ : EReal) + (e : EReal)
      = ((Q * (1 / 512) - μ * μ + e : ℝ) : EReal) := by
    rw [EReal.coe_add, EReal.coe_sub, EReal.coe_mul, EReal.coe_mul]
  have hR : (D : EReal) * ((1 / 512 : ℝ) : EReal) + (e : EReal) = ((Q * (1 / 512) - μ * μ + e : ℝ) : EReal) := by
    rw [← key, EReal.coe_add, EReal.coe_mul]
  unfold lnK lnR
  beta_reduce
  rw [invC_eq, lenC_eq, hE]
  simp only [Ideal.div_coe (by norm_num : (512 : ℝ) ≠ 0), hS, hQ, hμE, hD]
  rw [hL, hR, Ideal.rsqrt_coe, Ideal.sqrt_coe, if_neg (not_lt.2 hv.le), if_neg hv.ne', if_neg (not_lt.2 hv.le),
    Ideal.div_coe (Real.sqrt_pos.2 hv).ne', one_div (Real.sqrt (Q * (1 / 512) - μ * μ + e))]

/-- With real inputs the kernel's result and the reference's are one function. -/
theorem outK_eq_outR {x : Fin 2048 → Fin 512 → EReal} {Wd : Fin 64 → Fin 2048 → EReal} {bd : Fin 64 → EReal}
    {Wq Wk Wv Wg : Fin 64 → Fin 64 → EReal} {bg : Fin 64 → EReal} {Wu : Fin 2048 → Fin 64 → EReal} {bu : Fin 2048 → EReal}
    {α : EReal} (hx : ∀ l c, IsReal (x l c)) (hWd : ∀ r l, IsReal (Wd r l)) (hbd : ∀ r, IsReal (bd r))
    (hWq : ∀ s r, IsReal (Wq s r)) (hWk : ∀ s r, IsReal (Wk s r)) (hWv : ∀ s r, IsReal (Wv s r))
    (hWg : ∀ s r, IsReal (Wg s r)) (hbg : ∀ s, IsReal (bg s)) (hWu : ∀ l s, IsReal (Wu l s))
    (hbu : ∀ l, IsReal (bu l)) (hα : IsReal α) (γ β : Fin 512 → EReal) (l : Fin 2048) (c : Fin 512) :
    outK x Wd bd Wq Wk Wv Wg bg Wu bu γ β α l c = outR x Wd bd Wq Wk Wv Wg bg Wu bu γ β α l c :=
  lnK_eq_lnR (fun k => res_real hx hWd hbd hWq hWk hWv hWg hbg hWu hbu hα l k) γ β c

end Cert.Spec

end
-- ==== Proof.Finite.lean ====
import proofs.«125835_j78022375899457_2_alg».proof.Defs
import proofs.«125835_j78022375899457_2_alg».proof.Proof.SpecLaws
import Idealize.ShloMosaic.Lib.ReduceAll
import Idealize.ShloMosaic.Lib.ValueIdx
import Idealize.ShloMosaic.PureOps.Ideal.Laws

/-!
# The precondition says every input entry is a real number

The precondition is a conjunction, one conjunct per input array, of "every entry `a` has `|a| < +∞`". On the
extended reals `|a| = max a (−a)`, and `max a (−a) < ⊤` excludes both infinities, so `a` is a real.
-/

noncomputable section

namespace Cert.Finite

open Idealize.ShloMosaic Cert.Spec

instance : Subsingleton (⟨0, ![]⟩ : Shape).Idx := ⟨fun a b => funext fun d => d.elim0⟩

/-- The word the entries are compared with is `+∞`. -/
theorem inf_word : Ideal.ofBits .f32 0x7F800000#32 = ⊤ := by simp [Ideal.ofBits, Ideal.ieee]

/-- An extended real whose absolute value is below `+∞` is a real. -/
theorem real_of_abs_lt_inf {a : EReal} (h : Ideal.cmp .olt (max a (-a)) (Ideal.ofBits .f32 0x7F800000#32) = 1#1) :
    IsReal a := by
  rw [inf_word] at h
  have hlt : max a (-a) < ⊤ := by
    by_contra hn
    simp [Ideal.cmp, hn] at h
  induction a using EReal.rec with
  | bot => simp at hlt
  | coe r => exact ⟨r, rfl⟩
  | top => simp at hlt

/-- One conjunct: the reduction by `and` of the entrywise comparisons is 1, so every entry is real. -/
theorem entries_real {s : Shape} {axes : List (Fin s.rank)} (a lim : FVec Ideal s .f32)
    (hlim : ∀ i, lim i = Ideal.ofBits .f32 0x7F800000#32) (init : IVec (⟨0, ![]⟩ : Shape) 1)
    (h : s.ReducesTo axes (⟨0, ![]⟩ : Shape)) (hu : 0 < (⟨0, ![]⟩ : Shape).numel)
    (e : Host.reduce IntOp.andi (cmpf .olt (Host.absf a) lim) init h hu ValueIdx.ix0 = 1#1) (i : s.Idx) :
    IsReal (a i) := by
  have hi := Host.reduce_andi_all _ _ h hu ValueIdx.ix0 e i
  refine real_of_abs_lt_inf ?_
  rw [← hlim i]; exact hi

open Cert.Pre_finite_inputs in
/-- The whole precondition, opened: every entry of every input is real. -/
theorem inputs_real [Cert.Pre_finite_inputs.Facts] (a0 : FVec Ideal S64x2048x512 .f32) (a1 : FVec Ideal S64x2048 .f32)
    (a2 : FVec Ideal S64 .f32) (a3 a4 a5 a6 : FVec Ideal S64x64 .f32) (a7 : FVec Ideal S64 .f32)
    (a8 : FVec Ideal S2048x64 .f32) (a9 : FVec Ideal S2048 .f32) (a10 a11 : FVec Ideal S512 .f32) (a12 : FVec Ideal S_ .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h ValueIdx.ix0
  dsimp only [Cert.Pre_finite_inputs.fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨entries_real a0 _ (fun _ => rfl) _ _ _ e0, entries_real a1 _ (fun _ => rfl) _ _ _ e1,
    entries_real a2 _ (fun _ => rfl) _ _ _ e2, entries_real a3 _ (fun _ => rfl) _ _ _ e3,
    entries_real a4 _ (fun _ => rfl) _ _ _ e4, entries_real a5 _ (fun _ => rfl) _ _ _ e5,
    entries_real a6 _ (fun _ => rfl) _ _ _ e6, entries_real a7 _ (fun _ => rfl) _ _ _ e7,
    entries_real a8 _ (fun _ => rfl) _ _ _ e8, entries_real a9 _ (fun _ => rfl) _ _ _ e9,
    entries_real a10 _ (fun _ => rfl) _ _ _ e10, entries_real a11 _ (fun _ => rfl) _ _ _ e11,
    entries_real a12 _ (fun _ => rfl) _ _ _ e12⟩

end Cert.Finite

end
-- ==== Proof.lean ====
/-
  The five claims about one kernel and its reference.

  For each of 64 batches the programs take a `2048 × 512` slab `x`, form low-rank features `h = Wd x + bd`, project them
  by four `64 × 64` matrices, normalise the first two projections' columns to unit length (the length clamped below by
  `ε₁`), pool the product of the second and third over the 512 columns, gate by a logistic function of the fourth, map
  back by `Wu`, add `α` times the result to `x`, and normalise every row of 512 entries to zero mean and unit variance
  (offset `ε₂`) before the affine map `γ, β`. The kernel does this one batch per grid point; the reference on whole arrays.

  * The two kernel programs run to their end and leave their arguments alone: every grid point loads whole staging
    buffers, stores one whole block, and the host operations before the region write fresh arrays only.
  * The reference is a straight line of host operations; its run is read back one operation at a time.
  * Nothing was rewritten between the kernel and its idealisation, so there is nothing to preserve.
  * On extended reals the two results are one function of the arguments up to the last step, where the kernel takes the
    variance as `E[o²] − (E o)²` and multiplies by a reciprocal square root while the reference takes `E[(o − E o)²]` and
    divides by a square root. These agree on rows of real numbers, and every row is real because every input is: this
    is the one place the precondition is used.
-/
import proofs.«125835_j78022375899457_2_alg».proof.Defs
import proofs.«125835_j78022375899457_2_alg».proof.Proof.Gen.Kernel
import proofs.«125835_j78022375899457_2_alg».proof.Proof.Gen.KernelIdeal
import proofs.«125835_j78022375899457_2_alg».proof.Proof.Gen.ReferenceIdeal
import proofs.«125835_j78022375899457_2_alg».proof.Proof.Gen.Pre_finite_inputs
import proofs.«125835_j78022375899457_2_alg».proof.Proof.Gen.ReferenceIdeal.Run
import proofs.«125835_j78022375899457_2_alg».proof.Proof.Gen.ReferenceIdeal.Read
import proofs.«125835_j78022375899457_2_alg».proof.Proof.FrameBits
import proofs.«125835_j78022375899457_2_alg».proof.Proof.FrameIdeal
import proofs.«125835_j78022375899457_2_alg».proof.Proof.KernelValue
import proofs.«125835_j78022375899457_2_alg».proof.Proof.RefValue
import proofs.«125835_j78022375899457_2_alg».proof.Proof.SpecLaws
import proofs.«125835_j78022375899457_2_alg».proof.Proof.Finite
import Idealize.ShloMosaic.Adequacy
import Idealize.ShloMosaic.Init

noncomputable section

namespace Cert.Proof

open Idealize.ShloMosaic Idealize.SL.Sem Idealize.ShloMosaic.ValueIdx

/-- The kernel as printed runs and leaves its arguments unchanged. -/
theorem frame_kernel : Cert.frame_Kernel := fun m ρ _ => Cert.Kernel.Frame.frame m ρ

/-- So does its idealisation. -/
theorem frame_kernel_ideal : Cert.frame_KernelIdeal := fun m ρ _ => Cert.KernelIdeal.Frame.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both results are the specification's function of the arguments — the kernel's with the one-pass variance, the
    reference's with the two-pass one — and on real inputs these are equal. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  obtain ⟨e0, e1, e2, e3, e4, e5, e6, e7, e8, e9, e10, e11, e12⟩ := hagree c
  rw [e0, e1, e2, e3, e4, e5, e6, e7, e8, e9, e10, e11, e12]
  obtain ⟨r0, r1, r2, r3, r4, r5, r6, r7, r8, r9, r10, r11, r12⟩ := Cert.Finite.inputs_real _ _ _ _ _ _ _ _ _ _ _ _ _ (hpre c)
  funext i
  obtain ⟨b, l, k, rfl⟩ : ∃ (b : Fin 64) (l : Fin 2048) (k : Fin 512), i = ix3 b l k := ⟨i 0, i 1, i 2, eq_ix3 i⟩
  refine (Cert.ReferenceIdeal.RefValue.ref_apply _ _ _ _ _ _ _ _ _ _ _ _ _ b l k).trans ?_
  exact (Cert.Spec.outK_eq_outR (fun l c => r0 (ix3 b l c)) (fun r l => r1 (ix2 r l)) (fun r => r2 (ix1 r))
    (fun s r => r3 (ix2 s r)) (fun s r => r4 (ix2 s r)) (fun s r => r5 (ix2 s r)) (fun s r => r6 (ix2 s r))
    (fun s => r7 (ix1 s)) (fun l s => r8 (ix2 l s)) (fun l => r9 (ix1 l)) (r12 ix0) _ _ l k).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
